-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : IVec S2x200000 32) (main_arg3 : FVec F S256x128 .f32) (main_arg4 : FVec F S128 .f32) (main_arg5 : FVec F S128x128 .f32) (main_arg6 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S1x128 : Shape := ⟨2, ![1, 128]⟩
abbrev S128x100000 : Shape := ⟨2, ![128, 100000]⟩
abbrev S1x200000 : Shape := ⟨2, ![1, 200000]⟩
abbrev S200000 : Shape := ⟨1, ![200000]⟩
abbrev S200000x1 : Shape := ⟨2, ![200000, 1]⟩
abbrev S128x200000 : Shape := ⟨2, ![128, 200000]⟩
abbrev S128x204800 : Shape := ⟨2, ![128, 204800]⟩
abbrev S1x204800 : Shape := ⟨2, ![1, 204800]⟩
abbrev S128x8192 : Shape := ⟨2, ![128, 8192]⟩
abbrev S1x8192 : Shape := ⟨2, ![1, 8192]⟩
abbrev S8192 : Shape := ⟨1, ![8192]⟩

abbrev nBuf : Space → Nat
  | .hbm => 117
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S2x200000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S1600000x1, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S128x100000, .f32⟩
  | .hbm, ⟨86, _⟩ => ⟨S1x200000, .i32⟩
  | .hbm, ⟨87, _⟩ => ⟨S200000, .i32⟩
  | .hbm, ⟨88, _⟩ => ⟨S1x200000, .i32⟩
  | .hbm, ⟨89, _⟩ => ⟨S200000, .i32⟩
  | .hbm, ⟨90, _⟩ => ⟨S_, .i32⟩
  | .hbm, ⟨91, _⟩ => ⟨S200000, .i32⟩
  | .hbm, ⟨92, _⟩ => ⟨S200000, .i1⟩
  | .hbm, ⟨93, _⟩ => ⟨S_, .i32⟩
  | .hbm, ⟨94, _⟩ => ⟨S200000, .i32⟩
  | .hbm, ⟨95, _⟩ => ⟨S200000, .i32⟩
  | .hbm, ⟨96, _⟩ => ⟨S200000, .i32⟩
  | .hbm, ⟨97, _⟩ => ⟨S200000x1, .i32⟩
  | .hbm, ⟨98, _⟩ => ⟨S128x200000, .f32⟩
  | .hbm, ⟨99, _⟩ => ⟨S_, .i32⟩
  | .hbm, ⟨100, _⟩ => ⟨S200000, .i32⟩
  | .hbm, ⟨101, _⟩ => ⟨S200000, .i1⟩
  | .hbm, ⟨102, _⟩ => ⟨S_, .i32⟩
  | .hbm, ⟨103, _⟩ => ⟨S200000, .i32⟩
  | .hbm, ⟨104, _⟩ => ⟨S200000, .i32⟩
  | .hbm, ⟨105, _⟩ => ⟨S200000, .i32⟩
  | .hbm, ⟨106, _⟩ => ⟨S200000x1, .i32⟩
  | .hbm, ⟨107, _⟩ => ⟨S128x200000, .f32⟩
  | .hbm, ⟨108, _⟩ => ⟨S_, .i32⟩
  | .hbm, ⟨109, _⟩ => ⟨S_, .f32⟩
  | .hbm, ⟨110, _⟩ => ⟨S128x204800, .f32⟩
  | .hbm, ⟨111, _⟩ => ⟨S_, .i32⟩
  | .hbm, ⟨112, _⟩ => ⟨S_, .f32⟩
  | .hbm, ⟨113, _⟩ => ⟨S128x204800, .f32⟩
  | .hbm, ⟨114, _⟩ => ⟨S1x204800, .f32⟩
  | .hbm, ⟨115, _⟩ => ⟨S1x200000, .f32⟩
  | .hbm, ⟨116, _⟩ => ⟨S200000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S128x8192, .f32⟩
  | .local _ .vmem, ⟨21, _⟩ => ⟨S128x8192, .f32⟩
  | .local _ .vmem, ⟨22, _⟩ => ⟨S128x8192, .f32⟩
  | .local _ .vmem, ⟨23, _⟩ => ⟨S128x8192, .f32⟩
  | .local _ .vmem, ⟨24, _⟩ => ⟨S1x8192, .f32⟩
  | .local _ .vmem, ⟨25, _⟩ => ⟨S1x8192, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_11 : Ref sig .tc := ⟨.hbm, 90, rfl⟩
abbrev main_v70 : Ref sig .tc := ⟨.hbm, 91, rfl⟩
abbrev main_v71 : Ref sig .tc := ⟨.hbm, 92, rfl⟩
abbrev main_c_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_13 : Ref sig .tc := ⟨.hbm, 99, rfl⟩
abbrev main_v77 : Ref sig .tc := ⟨.hbm, 100, rfl⟩
abbrev main_v78 : Ref sig .tc := ⟨.hbm, 101, rfl⟩
abbrev main_c_14 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_15 : Ref sig .tc := ⟨.hbm, 108, rfl⟩
abbrev main_call0_v0 : Ref sig .tc := ⟨.hbm, 109, rfl⟩
abbrev main_v84 : Ref sig .tc := ⟨.hbm, 110, rfl⟩
abbrev main_c_16 : Ref sig .tc := ⟨.hbm, 111, rfl⟩
abbrev main_call1_v0 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S128x8192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x8192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  transposes_S100000x128_S128x100000_1_0 : S100000x128.Transposes [1, 0] S128x100000
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  pads_S128x200000_S128x204800_000_048000 : S128x200000.Pads (![0, 0] : Fin 2 → Nat) ![0, 4800] ![0, 0] S128x204800
  h_S_ : 0 < S_.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S8192 : S128x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  slices_S1x204800_S1x200000_0_0 : S1x204800.Slices ![0, 0] S1x200000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S128x100000_S200000x1_S128x200000_0_1_n_n_1_1_1281_wf : GatherDims.WF S128x100000 S200000x1 S128x200000 [0] [1] [] [1] [] 1 ![128, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x8192.size a ≤ S128x204800.size a
  hwx4_0 : ∀ i : grid4.Coords, EltTy.bits .f32 = 32 ∨ (Rect.block (s := S128x204800) S128x8192.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x8192.size a ≤ S128x204800.size a
  hwx4_1 : ∀ i : grid4.Coords, EltTy.bits .f32 = 32 ∨ (Rect.block (s := S128x204800) S128x8192.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x8192.size a ≤ S1x204800.size a
  hwx4_2 : ∀ i : grid4.Coords, EltTy.bits .f32 = 32 ∨ (Rect.block (s := S1x204800) S1x8192.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S128x100000_S200000x1_S128x200000_0_1_n_n_1_1_1281 : GatherDims S128x100000 S200000x1 S128x200000 where
  offsetDims := [0]
  collapsedSliceDims := [1]
  operandBatchingDims := []
  startIndicesBatchingDims := []
  startIndexMap := [1]
  indexVectorDim := 1
  sliceSizes := ![128, 1]
  wf := gather_S128x100000_S200000x1_S128x200000_0_1_n_n_1_1_1281_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v84) S128x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S128x8192.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x8192.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 147
  | .vmem => 0
  | .smem => 0
  | _ => 0

abbrev hbmTy0_0 (i : Nat) : BufTy := match i % 128 with
  | 0 => ⟨S100000x256, .f32⟩
  | 1 => ⟨S2x1600000, .i32⟩
  | 2 => ⟨S2x200000, .i32⟩
  | 3 => ⟨S256x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S_, .f32⟩
  | 70 => ⟨S1600000, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S1600000, .f32⟩
  | 107 => ⟨S1600000x1, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x200000, .i32⟩
  | 123 => ⟨S200000, .i32⟩
  | 124 => ⟨S_, .i32⟩
  | 125 => ⟨S200000, .i32⟩
  | 126 => ⟨S200000, .i1⟩
  | 127 => ⟨S_, .i32⟩
  | _ => ⟨S100000x256, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x128, .f32⟩
  | 5 => ⟨S1x200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x128, .f32⟩
  | 16 => ⟨S200000x128, .f32⟩
  | 17 => ⟨S_, .f32⟩
  | 18 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_15 : Ref sig .tc := ⟨.hbm, 97, rfl⟩
abbrev main_v71 : Ref sig .tc := ⟨.hbm, 98, rfl⟩
abbrev main_v72 : Ref sig .tc := ⟨.hbm, 99, rfl⟩
abbrev main_c_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_18 : Ref sig .tc := ⟨.hbm, 124, rfl⟩
abbrev main_v95 : Ref sig .tc := ⟨.hbm, 125, rfl⟩
abbrev main_v96 : Ref sig .tc := ⟨.hbm, 126, rfl⟩
abbrev main_c_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_20 : Ref sig .tc := ⟨.hbm, 135, rfl⟩
abbrev main_v104 : Ref sig .tc := ⟨.hbm, 136, rfl⟩
abbrev main_v105 : Ref sig .tc := ⟨.hbm, 137, rfl⟩
abbrev main_c_21 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_22 : Ref sig .tc := ⟨.hbm, 145, rfl⟩
abbrev main_v112 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

class Facts : Prop extends Facts₀ where

variable [Facts]
-- ==== Proof.KernelRun.lean ====
/-
  The kernel program's run with its result NAMED: every weakly fair execution of @main terminates, without a fault,
  with the result buffer at what the last segment boundary holds there and the seven argument arrays as launched.
  The boundary contents are the fold through @main's thirteen segments (eight stretches of host operations, five
  regions): each stretch applies its operations to the contents before it, each region replaces its output array by
  what its grid points wrote back and leaves every other buffer alone.
-/
import proofs.«149319_j55490977465143_1_alg».proof.Proof.Gen.KernelIdeal.Frame

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result read off the last boundary: the launch over the thirteen segments, the last thread state
    read against the final memory, the result buffer at the last boundary's contents and each argument walked
    back through the fold to the launch memory. -/
theorem run_named : θ_run defs (onTc (τ := τ) (main (F := F))) ⟨m, fun _ => 0, ρ⟩ (fun r => ∀ c : Dev nD,
      r.2.mem ((c.tc : Thread nD τ).loc main_v88) = W13 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v88 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.Gcn

end
-- ==== Proof.Spec.lean ====
/-
  What the kernel's program computes, as ONE composition of pure functions of the seven argument arrays.

  The program is a two-layer graph convolution followed by a dot-product edge decoder:
    deg = 1 + (number of edges arriving at a node),  dinv = deg^(-1/2),
    coef(e) = dinv[src e] · dinv[dst e],             self(n) = dinv n · dinv n,
    layer H = scatter-add over dst of (H[src e] · coef e) + H · self,
    h = max(layer (X·W1) + b1, 0),   z = layer (h·W2) + b2,
    out j = Σ_k z[u j, k] · z[v j, k]            (u, v the two rows of the edge-label index).
  The host stretches (degree, coefficients, gather, scatter-add, transposition, zero padding, final slice) are kept
  here as the printed host operations, composed; the five kernel regions appear as closed forms: two matrix
  products (mm1, mm2), two bias additions (biasRelu, bias) and the column-wise product-and-sum of the decoder (dec).
-/
import proofs.«149319_j55490977465143_1_alg».proof.Proof.Gen.KernelIdeal
import Idealize.ShloMosaic.Lib.ValueIdx
import Idealize.ShloMosaic.PureOps.Ideal

noncomputable section

namespace Cert.Gcn

open Idealize.ShloMosaic Idealize.ShloMosaic.TcCoe Idealize.SL.Sem
open Cert.KernelIdeal Cert.KernelIdeal.Facts₀ Cert.KernelIdeal.Facts

/-- A float array of shape s. -/
abbrev FArr (F : FTy → Type) [FloatOps F] (s : Shape) : Type := (⟨s, .f32⟩ : BufTy).Contents (Elt F)
/-- A 32-bit integer array of shape s. -/
abbrev IArr (F : FTy → Type) [FloatOps F] (s : Shape) : Type := (⟨s, .i32⟩ : BufTy).Contents (Elt F)

variable {F : FTy → Type} [FloatOps F]

/-! ## The edge list's two rows, and a jnp index brought into range (a negative index counts from the end) -/

/-- Row 0 of the edge index: the edges' source nodes. -/
def src (e : IArr F S2x1600000) : IArr F S1600000 :=
  shapeCast _ (extractStridedSlice S1x1600000 ![0, 0] e slices_S2x1600000_S1x1600000_0_0) shapeCasts_S1x1600000_S1600000
/-- Row 1 of the edge index: the edges' destination nodes. -/
def dst (e : IArr F S2x1600000) : IArr F S1600000 :=
  shapeCast _ (extractStridedSlice S1x1600000 ![1, 0] e slices_S2x1600000_S1x1600000_1_0) shapeCasts_S1x1600000_S1600000
/-- v < 0 ? v + 100000 : v, entry by entry, on a vector of 1600000 node numbers. -/
def wrapE (v : IArr F S1600000) : IArr F S1600000 :=
  select (cmpi .slt v (broadcastInDim S1600000 ![] bcast_S_S1600000 (constantI S_ 32 0#32)))
    (addi v (broadcastInDim S1600000 ![] bcast_S_S1600000 (constantI S_ 32 100000#32))) v
/-- A vector of 1600000 node numbers as an index column [1600000, 1]. -/
def colE (v : IArr F S1600000) : IArr F S1600000x1 :=
  broadcastInDim S1600000x1 ![0] bcast_S1600000_S1600000x1_0 v

/-! ## Degrees and the two normalisation factors -/

/-- deg^(-1/2), where deg n = 1 + the number of edges whose destination is n. -/
def dinv (e : IArr F S2x1600000) : FArr F S100000 :=
  Host.rsqrt (addf
    (Host.scatterAdd scatter_S100000_S1600000x1_S1600000_n_0_0_1
      (broadcastInDim S100000 ![] bcast_S_S100000 (constant S_ .f32 0x00000000#32))
      (colE (dst e))
      (broadcastInDim S1600000 ![] bcast_S_S1600000 (constant S_ .f32 0x3F800000#32)))
    (broadcastInDim S100000 ![] bcast_S_S100000 (constant S_ .f32 0x3F800000#32)))
/-- The edge coefficient dinv[src e] · dinv[dst e], as a column [1600000, 1]. -/
def coef (e : IArr F S2x1600000) : FArr F S1600000x1 :=
  broadcastInDim S1600000x1 ![0] bcast_S1600000_S1600000x1_0
    (mulf (Host.gather gather_S100000_S1600000x1_S1600000_n_0_n_n_0_1_1 (dinv e) (colE (wrapE (src e))))
          (Host.gather gather_S100000_S1600000x1_S1600000_n_0_n_n_0_1_1 (dinv e) (colE (wrapE (dst e)))))
/-- The self-loop coefficient dinv n · dinv n, as a column [100000, 1]. -/
def selfc (e : IArr F S2x1600000) : FArr F S100000x1 :=
  broadcastInDim S100000x1 ![0] bcast_S100000_S100000x1_0 (mulf (dinv e) (dinv e))

/-! ## One round of message passing on a node-by-feature array -/

/-- Σ over the edges arriving at a node of H[src] · coef, plus H · self. -/
def layer (h : FArr F S100000x128) (e : IArr F S2x1600000) : FArr F S100000x128 :=
  addf
    (Host.scatterAdd scatter_S100000x128_S1600000x1_S1600000x128_1_0_0_1
      (broadcastInDim S100000x128 ![] bcast_S_S100000x128 (constant S_ .f32 0x00000000#32))
      (colE (dst e))
      (mulf (Host.gather gather_S100000x128_S1600000x1_S1600000x128_1_0_n_n_0_1_1128 h (colE (wrapE (src e))))
            (broadcastInDim S1600000x128 ![0, 1] bcast_S1600000x1_S1600000x128_0_1 (coef e))))
    (mulf h (broadcastInDim S100000x128 ![0, 1] bcast_S100000x1_S100000x128_0_1 (selfc e)))

/-- A bias vector [128] as the one row [1, 128]. -/
def brow (b : FArr F S128) : FArr F S1x128 := shapeCast _ b shapeCasts_S128_S1x128

/-! ## The five regions, in closed form -/

/-- The index (row of i, k). -/
abbrev rowK {n d K : Nat} (i : (⟨2, ![n, d]⟩ : Shape).Idx) (k : Fin K) : (⟨2, ![n, K]⟩ : Shape).Idx := fun a => match a with
  | ⟨0, _⟩ => ⟨(i 0).val, (i 0).isLt⟩
  | ⟨1, _⟩ => ⟨k.val, k.isLt⟩
/-- The index (k, column of i). -/
abbrev kCol {n d K : Nat} (i : (⟨2, ![n, d]⟩ : Shape).Idx) (k : Fin K) : (⟨2, ![K, d]⟩ : Shape).Idx := fun a => match a with
  | ⟨0, _⟩ => ⟨k.val, k.isLt⟩
  | ⟨1, _⟩ => ⟨(i 1).val, (i 1).isLt⟩
/-- The index (0, column of i) of a one-row array. -/
abbrev zeroCol {n d : Nat} (i : (⟨2, ![n, d]⟩ : Shape).Idx) : (⟨2, ![1, d]⟩ : Shape).Idx := fun a => match a with
  | ⟨0, _⟩ => ⟨0, Nat.one_pos⟩
  | ⟨1, _⟩ => ⟨(i 1).val, (i 1).isLt⟩

/-- X · W1: entry (p, j) is Σ_k X(p, k) · W1(k, j). -/
def mm1 (a : FArr Ideal S100000x256) (w : FArr Ideal S256x128) : FArr Ideal S100000x128 :=
  fun i => ∑ k : Fin 256, a (rowK i k) * w (kCol i k)
/-- H · W2: entry (p, j) is Σ_k H(p, k) · W2(k, j). -/
def mm2 (a : FArr Ideal S100000x128) (w : FArr Ideal S128x128) : FArr Ideal S100000x128 :=
  fun i => ∑ k : Fin 128, a (rowK i k) * w (kCol i k)
/-- max(A + b, 0) with the bias row repeated down the rows. -/
def biasRelu (a : FArr F S100000x128) (b : FArr F S1x128) : FArr F S100000x128 :=
  fun i => FloatOps.maximumf (FloatOps.addf (a i) (b (zeroCol i))) (FloatOps.ofBits .f32 0x00000000#32)
/-- A + b with the bias row repeated down the rows. -/
def bias (a : FArr F S100000x128) (b : FArr F S1x128) : FArr F S100000x128 :=
  fun i => FloatOps.addf (a i) (b (zeroCol i))
/-- The decoder: entry (0, j) is Σ_k A(k, j) · B(k, j). -/
def dec (a b : FArr Ideal S128x204800) : FArr Ideal S1x204800 :=
  fun i => ∑ k : Fin 128, a (kCol i k) * b (kCol i k)

/-! ## The decoder's operands and the result -/

/-- Row r of the edge-label index, brought into range, as an index column [200000, 1]. -/
def labelCol0 (l : IArr F S2x200000) : IArr F S200000x1 :=
  let v : IArr F S200000 := shapeCast _ (extractStridedSlice S1x200000 ![0, 0] l slices_S2x200000_S1x200000_0_0) shapeCasts_S1x200000_S200000
  broadcastInDim S200000x1 ![0] bcast_S200000_S200000x1_0
    (select (cmpi .slt v (broadcastInDim S200000 ![] bcast_S_S200000 (constantI S_ 32 0#32)))
      (addi v (broadcastInDim S200000 ![] bcast_S_S200000 (constantI S_ 32 100000#32))) v)
def labelCol1 (l : IArr F S2x200000) : IArr F S200000x1 :=
  let v : IArr F S200000 := shapeCast _ (extractStridedSlice S1x200000 ![1, 0] l slices_S2x200000_S1x200000_1_0) shapeCasts_S1x200000_S200000
  broadcastInDim S200000x1 ![0] bcast_S200000_S200000x1_0
    (select (cmpi .slt v (broadcastInDim S200000 ![] bcast_S_S200000 (constantI S_ 32 0#32)))
      (addi v (broadcastInDim S200000 ![] bcast_S_S200000 (constantI S_ 32 100000#32))) v)
/-- The node features transposed to feature-major [128, 100000]. -/
def featMajor (z : FArr F S100000x128) : FArr F S128x100000 :=
  transpose S128x100000 [1, 0] z transposes_S100000x128_S128x100000_1_0
/-- Columns of the feature-major array picked by an index column, then padded with zeros to 204800 columns. -/
def pickPad (zT : FArr F S128x100000) (ix : IArr F S200000x1) : FArr F S128x204800 :=
  pad S128x204800 ![0, 0] ![0, 4800] ![0, 0]
    (Host.gather gather_S128x100000_S200000x1_S128x200000_0_1_n_n_1_1_1281 zT ix)
    (sitofp .f32 (constantI S_ 32 0#32 : IArr F S_)) pads_S128x200000_S128x204800_000_048000 h_S_
/-- The first 200000 entries of the decoder's one row, as a vector. -/
def firstEntries (o : FArr F S1x204800) : FArr F S200000 :=
  shapeCast _ (extractStridedSlice S1x200000 ![0, 0] o slices_S1x204800_S1x200000_0_0) shapeCasts_S1x200000_S200000

/-- The node embeddings z after both layers. -/
def embed (x : FArr Ideal S100000x256) (e : IArr Ideal S2x1600000) (w1 : FArr Ideal S256x128) (b1 : FArr Ideal S128)
    (w2 : FArr Ideal S128x128) (b2 : FArr Ideal S128) : FArr Ideal S100000x128 :=
  bias (layer (mm2 (biasRelu (layer (mm1 x w1) e) (brow b1)) w2) e) (brow b2)

/-- The program's result: one score per labelled edge. -/
def out (x : FArr Ideal S100000x256) (e : IArr Ideal S2x1600000) (l : IArr Ideal S2x200000) (w1 : FArr Ideal S256x128)
    (b1 : FArr Ideal S128) (w2 : FArr Ideal S128x128) (b2 : FArr Ideal S128) : FArr Ideal S200000 :=
  firstEntries (dec (pickPad (featMajor (embed x e w1 b1 w2 b2)) (labelCol0 l))
                    (pickPad (featMajor (embed x e w1 b1 w2 b2)) (labelCol1 l)))

end Cert.Gcn

end
-- ==== Proof.StretchA.lean ====
/-
  The first stretch of host operations, before any region: from the edge index alone it computes the edges' source and
  destination vectors, the degree normalisation, the edge coefficients dinv[src]·dinv[dst] and the self-loop
  coefficients dinv·dinv. Read here at the four buffers later stretches use; the arguments are not written.
-/
import proofs.«149319_j55490977465143_1_alg».proof.Proof.Gen.KernelIdeal.Launch
import proofs.«149319_j55490977465143_1_alg».proof.Proof.Spec
import Idealize.ShloMosaic.Lib.StableHlo.Run

noncomputable section

namespace Cert.Gcn

open Idealize.ShloMosaic Idealize.ShloMosaic.TcCoe Idealize.SL.Sem Idealize.ShloMosaic.StableHlo
open Cert.KernelIdeal Cert.KernelIdeal.Gen

/- The contents the stretch is entered from: ANY valuation of the buffers, so that each statement says only what the
   stretch's own operations do to the buffers they read. -/
variable (Wp : Valuation τ sig (Elt Ideal))
set_option maxRecDepth 8192 in
set_option maxHeartbeats 8000000 in
/-- The source vector: row 0 of the edge index. -/
theorem host0_v1 (e : IArr Ideal S2x1600000) (h : Wp (Proc.devRef .tc main_arg1) = e) :
    StableHlo.after (hostOps0 (F := Ideal)) Wp (Proc.devRef .tc main_v1) = src e := by
  after_results_simp; rw [h]; rfl

set_option maxRecDepth 8192 in
set_option maxHeartbeats 8000000 in
/-- The destination vector: row 1 of the edge index. -/
theorem host0_v3 (e : IArr Ideal S2x1600000) (h : Wp (Proc.devRef .tc main_arg1) = e) :
    StableHlo.after (hostOps0 (F := Ideal)) Wp (Proc.devRef .tc main_v3) = dst e := by
  after_results_simp; rw [h]; rfl

set_option maxRecDepth 8192 in
set_option maxHeartbeats 8000000 in
/-- The edge coefficients, one per edge, as a column. -/
theorem host0_v26 (e : IArr Ideal S2x1600000) (h : Wp (Proc.devRef .tc main_arg1) = e) :
    StableHlo.after (hostOps0 (F := Ideal)) Wp (Proc.devRef .tc main_v26) = coef e := by
  after_results_simp; rw [h]; rfl

set_option maxRecDepth 8192 in
set_option maxHeartbeats 8000000 in
/-- The self-loop coefficients, one per node, as a column. -/
theorem host0_v28 (e : IArr Ideal S2x1600000) (h : Wp (Proc.devRef .tc main_arg1) = e) :
    StableHlo.after (hostOps0 (F := Ideal)) Wp (Proc.devRef .tc main_v28) = selfc e := by
  after_results_simp; rw [h]; rfl

set_option maxRecDepth 8192 in
set_option maxHeartbeats 8000000 in
/-- Argument 0 is not written by the first stretch. -/
theorem host0_arg0 : StableHlo.after (hostOps0 (F := Ideal)) Wp (Proc.devRef .tc main_arg0) = Wp (Proc.devRef .tc main_arg0) := by
  after_results_simp

set_option maxRecDepth 8192 in
set_option maxHeartbeats 8000000 in
/-- Argument 2 is not written by the first stretch. -/
theorem host0_arg2 : StableHlo.after (hostOps0 (F := Ideal)) Wp (Proc.devRef .tc main_arg2) = Wp (Proc.devRef .tc main_arg2) := by
  after_results_simp

set_option maxRecDepth 8192 in
set_option maxHeartbeats 8000000 in
/-- Argument 3 is not written by the first stretch. -/
theorem host0_arg3 : StableHlo.after (hostOps0 (F := Ideal)) Wp (Proc.devRef .tc main_arg3) = Wp (Proc.devRef .tc main_arg3) := by
  after_results_simp

set_option maxRecDepth 8192 in
set_option maxHeartbeats 8000000 in
/-- Argument 4 is not written by the first stretch. -/
theorem host0_arg4 : StableHlo.after (hostOps0 (F := Ideal)) Wp (Proc.devRef .tc main_arg4) = Wp (Proc.devRef .tc main_arg4) := by
  after_results_simp

set_option maxRecDepth 8192 in
set_option maxHeartbeats 8000000 in
/-- Argument 5 is not written by the first stretch. -/
theorem host0_arg5 : StableHlo.after (hostOps0 (F := Ideal)) Wp (Proc.devRef .tc main_arg5) = Wp (Proc.devRef .tc main_arg5) := by
  after_results_simp

set_option maxRecDepth 8192 in
set_option maxHeartbeats 8000000 in
/-- Argument 6 is not written by the first stretch. -/
theorem host0_arg6 : StableHlo.after (hostOps0 (F := Ideal)) Wp (Proc.devRef .tc main_arg6) = Wp (Proc.devRef .tc main_arg6) := by
  after_results_simp

end Cert.Gcn

end
-- ==== Proof.StretchB.lean ====
/-
  The two stretches of host operations that perform the message passing of a layer on a node-by-feature array H (the
  output of the matrix-product region before it): gather H at the edges' sources, scale by the edge coefficient,
  scatter-add to the destinations, add H scaled by the self-loop coefficient; and the layer's bias vector cast to a row.
  Both stretches are the same operations on different buffers.
-/
import proofs.«149319_j55490977465143_1_alg».proof.Proof.Gen.KernelIdeal.Launch
import proofs.«149319_j55490977465143_1_alg».proof.Proof.Spec
import Idealize.ShloMosaic.Lib.StableHlo.Run

noncomputable section

namespace Cert.Gcn

open Idealize.ShloMosaic Idealize.ShloMosaic.TcCoe Idealize.SL.Sem Idealize.ShloMosaic.StableHlo
open Cert.KernelIdeal Cert.KernelIdeal.Gen

/- The contents the stretch is entered from: ANY valuation of the buffers, so that each statement says only what the
   stretch's own operations do to the buffers they read. -/
variable (Wp : Valuation τ sig (Elt Ideal))
set_option maxRecDepth 8192 in
set_option maxHeartbeats 8000000 in
/-- Layer 1's message passing on the first product. -/
theorem host1_v44 (H : FArr Ideal S100000x128) (e : IArr Ideal S2x1600000)
    (h29 : Wp (Proc.devRef .tc main_v29) = H) (h1 : Wp (Proc.devRef .tc main_v1) = src e) (h3 : Wp (Proc.devRef .tc main_v3) = dst e)
    (h26 : Wp (Proc.devRef .tc main_v26) = coef e) (h28 : Wp (Proc.devRef .tc main_v28) = selfc e) :
    StableHlo.after (hostOps1 (F := Ideal)) Wp (Proc.devRef .tc main_v44) = layer H e := by
  after_results_simp; rw [h29, h1, h3, h26, h28]; rfl

set_option maxRecDepth 8192 in
set_option maxHeartbeats 8000000 in
/-- Layer 1's bias as a row. -/
theorem host1_v45 (b : FArr Ideal S128) (h : Wp (Proc.devRef .tc main_arg4) = b) :
    StableHlo.after (hostOps1 (F := Ideal)) Wp (Proc.devRef .tc main_v45) = brow b := by
  after_results_simp; rw [h]; rfl

set_option maxRecDepth 8192 in
set_option maxHeartbeats 8000000 in
/-- Not written by layer 1's stretch. -/
theorem host1_v1 : StableHlo.after (hostOps1 (F := Ideal)) Wp (Proc.devRef .tc main_v1) = Wp (Proc.devRef .tc main_v1) := by
  after_results_simp

set_option maxRecDepth 8192 in
set_option maxHeartbeats 8000000 in
/-- Not written by layer 1's stretch. -/
theorem host1_v3 : StableHlo.after (hostOps1 (F := Ideal)) Wp (Proc.devRef .tc main_v3) = Wp (Proc.devRef .tc main_v3) := by
  after_results_simp

set_option maxRecDepth 8192 in
set_option maxHeartbeats 8000000 in
/-- Not written by layer 1's stretch. -/
theorem host1_v26 : StableHlo.after (hostOps1 (F := Ideal)) Wp (Proc.devRef .tc main_v26) = Wp (Proc.devRef .tc main_v26) := by
  after_results_simp

set_option maxRecDepth 8192 in
set_option maxHeartbeats 8000000 in
/-- Not written by layer 1's stretch. -/
theorem host1_v28 : StableHlo.after (hostOps1 (F := Ideal)) Wp (Proc.devRef .tc main_v28) = Wp (Proc.devRef .tc main_v28) := by
  after_results_simp

set_option maxRecDepth 8192 in
set_option maxHeartbeats 8000000 in
/-- Not written by layer 1's stretch. -/
theorem host1_arg2 : StableHlo.after (hostOps1 (F := Ideal)) Wp (Proc.devRef .tc main_arg2) = Wp (Proc.devRef .tc main_arg2) := by
  after_results_simp

set_option maxRecDepth 8192 in
set_option maxHeartbeats 8000000 in
/-- Not written by layer 1's stretch. -/
theorem host1_arg5 : StableHlo.after (hostOps1 (F := Ideal)) Wp (Proc.devRef .tc main_arg5) = Wp (Proc.devRef .tc main_arg5) := by
  after_results_simp

set_option maxRecDepth 8192 in
set_option maxHeartbeats 8000000 in
/-- Not written by layer 1's stretch. -/
theorem host1_arg6 : StableHlo.after (hostOps1 (F := Ideal)) Wp (Proc.devRef .tc main_arg6) = Wp (Proc.devRef .tc main_arg6) := by
  after_results_simp

set_option maxRecDepth 8192 in
set_option maxHeartbeats 8000000 in
/-- Layer 2's message passing on the second product. -/
theorem host3_v62 (H : FArr Ideal S100000x128) (e : IArr Ideal S2x1600000)
    (h47 : Wp (Proc.devRef .tc main_v47) = H) (h1 : Wp (Proc.devRef .tc main_v1) = src e) (h3 : Wp (Proc.devRef .tc main_v3) = dst e)
    (h26 : Wp (Proc.devRef .tc main_v26) = coef e) (h28 : Wp (Proc.devRef .tc main_v28) = selfc e) :
    StableHlo.after (hostOps3 (F := Ideal)) Wp (Proc.devRef .tc main_v62) = layer H e := by
  after_results_simp; rw [h47, h1, h3, h26, h28]; rfl

set_option maxRecDepth 8192 in
set_option maxHeartbeats 8000000 in
/-- Layer 2's bias as a row. -/
theorem host3_v63 (b : FArr Ideal S128) (h : Wp (Proc.devRef .tc main_arg6) = b) :
    StableHlo.after (hostOps3 (F := Ideal)) Wp (Proc.devRef .tc main_v63) = brow b := by
  after_results_simp; rw [h]; rfl

set_option maxRecDepth 8192 in
set_option maxHeartbeats 8000000 in
/-- Not written by layer 2's stretch. -/
theorem host3_arg2 : StableHlo.after (hostOps3 (F := Ideal)) Wp (Proc.devRef .tc main_arg2) = Wp (Proc.devRef .tc main_arg2) := by
  after_results_simp

end Cert.Gcn

end
-- ==== Proof.StretchC.lean ====
/-
  The host stretches around the decoder region: the node embeddings transposed to feature-major, the columns named by
  each row of the edge-label index gathered, each result padded with 4800 zero columns (two calls of one function,
  each a stretch of its own); and, after the region, the first 200000 entries of its one output row as a vector.
-/
import proofs.«149319_j55490977465143_1_alg».proof.Proof.Gen.KernelIdeal.Launch
import proofs.«149319_j55490977465143_1_alg».proof.Proof.Spec
import Idealize.ShloMosaic.Lib.StableHlo.Run

noncomputable section

namespace Cert.Gcn

open Idealize.ShloMosaic Idealize.ShloMosaic.TcCoe Idealize.SL.Sem Idealize.ShloMosaic.StableHlo
open Cert.KernelIdeal Cert.KernelIdeal.Gen

/- The contents the stretch is entered from: ANY valuation of the buffers, so that each statement says only what the
   stretch's own operations do to the buffers they read. -/
variable (Wp : Valuation τ sig (Elt Ideal))
set_option maxRecDepth 8192 in
set_option maxHeartbeats 8000000 in
/-- The columns picked by row 0 of the edge-label index. -/
theorem host4_v76 (z : FArr Ideal S100000x128) (l : IArr Ideal S2x200000)
    (h64 : Wp (Proc.devRef .tc main_v64) = z) (h2 : Wp (Proc.devRef .tc main_arg2) = l) :
    StableHlo.after (hostOps4 (F := Ideal)) Wp (Proc.devRef .tc main_v76)
      = Host.gather gather_S128x100000_S200000x1_S128x200000_0_1_n_n_1_1_1281 (featMajor z) (labelCol0 l) := by
  after_results_simp; rw [h64, h2]; rfl

set_option maxRecDepth 8192 in
set_option maxHeartbeats 8000000 in
/-- The columns picked by row 1 of the edge-label index. -/
theorem host4_v83 (z : FArr Ideal S100000x128) (l : IArr Ideal S2x200000)
    (h64 : Wp (Proc.devRef .tc main_v64) = z) (h2 : Wp (Proc.devRef .tc main_arg2) = l) :
    StableHlo.after (hostOps4 (F := Ideal)) Wp (Proc.devRef .tc main_v83)
      = Host.gather gather_S128x100000_S200000x1_S128x200000_0_1_n_n_1_1_1281 (featMajor z) (labelCol1 l) := by
  after_results_simp; rw [h64, h2]; rfl

set_option maxRecDepth 8192 in
set_option maxHeartbeats 8000000 in
/-- The integer zero the first padding call converts to its padding value. -/
theorem host4_c15 : StableHlo.after (hostOps4 (F := Ideal)) Wp (Proc.devRef .tc main_c_15) = (constantI S_ 32 0#32 : IArr Ideal S_) := by
  after_results_simp

set_option maxRecDepth 8192 in
set_option maxHeartbeats 8000000 in
/-- The first padding call. -/
theorem host41_v84 (zT : FArr Ideal S128x100000) (ix : IArr Ideal S200000x1)
    (h76 : Wp (Proc.devRef .tc main_v76) = Host.gather gather_S128x100000_S200000x1_S128x200000_0_1_n_n_1_1_1281 zT ix)
    (h15 : Wp (Proc.devRef .tc main_c_15) = (constantI S_ 32 0#32 : IArr Ideal S_)) :
    StableHlo.after (hostOps4_1 (F := Ideal)) Wp (Proc.devRef .tc main_v84) = pickPad zT ix := by
  after_results_simp; rw [h76, h15]; rfl

set_option maxRecDepth 8192 in
set_option maxHeartbeats 8000000 in
/-- The second operand is not written by the first padding call. -/
theorem host41_v83 : StableHlo.after (hostOps4_1 (F := Ideal)) Wp (Proc.devRef .tc main_v83) = Wp (Proc.devRef .tc main_v83) := by
  after_results_simp

set_option maxRecDepth 8192 in
set_option maxHeartbeats 8000000 in
/-- The integer zero the second padding call converts to its padding value. -/
theorem host42_c16 : StableHlo.after (hostOps4_2 (F := Ideal)) Wp (Proc.devRef .tc main_c_16) = (constantI S_ 32 0#32 : IArr Ideal S_) := by
  after_results_simp

set_option maxRecDepth 8192 in
set_option maxHeartbeats 8000000 in
/-- Not written between the two padding calls. -/
theorem host42_v83 : StableHlo.after (hostOps4_2 (F := Ideal)) Wp (Proc.devRef .tc main_v83) = Wp (Proc.devRef .tc main_v83) := by
  after_results_simp

set_option maxRecDepth 8192 in
set_option maxHeartbeats 8000000 in
/-- Not written between the two padding calls. -/
theorem host42_v84 : StableHlo.after (hostOps4_2 (F := Ideal)) Wp (Proc.devRef .tc main_v84) = Wp (Proc.devRef .tc main_v84) := by
  after_results_simp

set_option maxRecDepth 8192 in
set_option maxHeartbeats 8000000 in
/-- The second padding call. -/
theorem host43_v85 (zT : FArr Ideal S128x100000) (ix : IArr Ideal S200000x1)
    (h83 : Wp (Proc.devRef .tc main_v83) = Host.gather gather_S128x100000_S200000x1_S128x200000_0_1_n_n_1_1_1281 zT ix)
    (h16 : Wp (Proc.devRef .tc main_c_16) = (constantI S_ 32 0#32 : IArr Ideal S_)) :
    StableHlo.after (hostOps4_3 (F := Ideal)) Wp (Proc.devRef .tc main_v85) = pickPad zT ix := by
  after_results_simp; rw [h83, h16]; rfl

set_option maxRecDepth 8192 in
set_option maxHeartbeats 8000000 in
/-- The first padded operand is not written by the second padding call. -/
theorem host43_v84 : StableHlo.after (hostOps4_3 (F := Ideal)) Wp (Proc.devRef .tc main_v84) = Wp (Proc.devRef .tc main_v84) := by
  after_results_simp

set_option maxRecDepth 8192 in
set_option maxHeartbeats 8000000 in
/-- The result: the first 200000 entries of the decoder's row. -/
theorem host5_v88 (o : FArr Ideal S1x204800) (h86 : Wp (Proc.devRef .tc main_v86) = o) :
    StableHlo.after (hostOps5 (F := Ideal)) Wp (Proc.devRef .tc main_v88) = firstEntries o := by
  after_results_simp; rw [h86]; rfl

end Cert.Gcn

end
-- ==== Proof.Fold.lean ====
/-
  The last segment boundary's result buffer, read back through @main's thirteen segments to the launch arguments.

  At each boundary the buffers later segments read are named as functions of the seven arguments: a stretch of host
  operations applies its operations to the boundary before it; a region replaces its output array by its closed form
  of its two input arrays (the hypotheses hf0 … hf4, one per region) and leaves every other buffer as it was. The walk
  ends at out of the arguments: the composition the specification states.
-/
import proofs.«149319_j55490977465143_1_alg».proof.Proof.Gen.KernelIdeal.Frame
import proofs.«149319_j55490977465143_1_alg».proof.Proof.Spec
import proofs.«149319_j55490977465143_1_alg».proof.Proof.StretchA
import proofs.«149319_j55490977465143_1_alg».proof.Proof.StretchB
import proofs.«149319_j55490977465143_1_alg».proof.Proof.StretchC

set_option maxRecDepth 16384
-- the shorthands below for the seven arguments mention the device c of each statement
set_option quotPrecheck false

noncomputable section

namespace Cert.Gcn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)

/-! ## Boundary 1: after the first stretch -/

theorem b1_v1 : W1 m ρ c (Proc.devRef .tc main_v1) = src X1 := host0_v1 (W0 m ρ c) _ rfl
theorem b1_v3 : W1 m ρ c (Proc.devRef .tc main_v3) = dst X1 := host0_v3 (W0 m ρ c) _ rfl
theorem b1_v26 : W1 m ρ c (Proc.devRef .tc main_v26) = coef X1 := host0_v26 (W0 m ρ c) _ rfl
theorem b1_v28 : W1 m ρ c (Proc.devRef .tc main_v28) = selfc X1 := host0_v28 (W0 m ρ c) _ rfl
theorem b1_arg0 : W1 m ρ c (Proc.devRef .tc main_arg0) = X0 := host0_arg0 (W0 m ρ c)
theorem b1_arg2 : W1 m ρ c (Proc.devRef .tc main_arg2) = X2 := host0_arg2 (W0 m ρ c)
theorem b1_arg3 : W1 m ρ c (Proc.devRef .tc main_arg3) = X3 := host0_arg3 (W0 m ρ c)
theorem b1_arg4 : W1 m ρ c (Proc.devRef .tc main_arg4) = X4 := host0_arg4 (W0 m ρ c)
theorem b1_arg5 : W1 m ρ c (Proc.devRef .tc main_arg5) = X5 := host0_arg5 (W0 m ρ c)
theorem b1_arg6 : W1 m ρ c (Proc.devRef .tc main_arg6) = X6 := host0_arg6 (W0 m ρ c)

/-! ## Boundary 2: after region 0, the first matrix product -/

section
variable (hf0 : ∀ (V : (c : Dev nD) → (b : Ref sig .tc) → Buf (Elt Ideal) ((c : Thread nD τ).loc b)) (c : Dev nD),
  (dat0 (F := Ideal) V c).arrAt 2 cfg0.N = mm1 (V c main_arg0) (V c main_arg3))
include hf0

theorem b2_v29 : W2 m ρ c (Proc.devRef .tc main_v29) = mm1 X0 X3 :=
  (W2_arr m ρ c 2).trans ((hf0 (V1 m ρ) c).trans (congrArg₂ mm1 (b1_arg0 m ρ c) (b1_arg3 m ρ c)))
end
theorem b2_v1 : W2 m ρ c (Proc.devRef .tc main_v1) = src X1 := (W2_of_ne m ρ c main_v1 (by decide)).trans (b1_v1 m ρ c)
theorem b2_v3 : W2 m ρ c (Proc.devRef .tc main_v3) = dst X1 := (W2_of_ne m ρ c main_v3 (by decide)).trans (b1_v3 m ρ c)
theorem b2_v26 : W2 m ρ c (Proc.devRef .tc main_v26) = coef X1 := (W2_of_ne m ρ c main_v26 (by decide)).trans (b1_v26 m ρ c)
theorem b2_v28 : W2 m ρ c (Proc.devRef .tc main_v28) = selfc X1 := (W2_of_ne m ρ c main_v28 (by decide)).trans (b1_v28 m ρ c)
theorem b2_arg2 : W2 m ρ c (Proc.devRef .tc main_arg2) = X2 := (W2_of_ne m ρ c main_arg2 (by decide)).trans (b1_arg2 m ρ c)
theorem b2_arg4 : W2 m ρ c (Proc.devRef .tc main_arg4) = X4 := (W2_of_ne m ρ c main_arg4 (by decide)).trans (b1_arg4 m ρ c)
theorem b2_arg5 : W2 m ρ c (Proc.devRef .tc main_arg5) = X5 := (W2_of_ne m ρ c main_arg5 (by decide)).trans (b1_arg5 m ρ c)
theorem b2_arg6 : W2 m ρ c (Proc.devRef .tc main_arg6) = X6 := (W2_of_ne m ρ c main_arg6 (by decide)).trans (b1_arg6 m ρ c)

/-! ## Boundary 3: after layer 1's message passing -/

section
variable (hf0 : ∀ (V : (c : Dev nD) → (b : Ref sig .tc) → Buf (Elt Ideal) ((c : Thread nD τ).loc b)) (c : Dev nD),
  (dat0 (F := Ideal) V c).arrAt 2 cfg0.N = mm1 (V c main_arg0) (V c main_arg3))
include hf0
theorem b3_v44 : W3 m ρ c (Proc.devRef .tc main_v44) = layer (mm1 X0 X3) X1 :=
  host1_v44 (W2 m ρ c) _ _ (b2_v29 m ρ c hf0) (b2_v1 m ρ c) (b2_v3 m ρ c) (b2_v26 m ρ c) (b2_v28 m ρ c)
end
theorem b3_v45 : W3 m ρ c (Proc.devRef .tc main_v45) = brow X4 := host1_v45 (W2 m ρ c) _ (b2_arg4 m ρ c)
theorem b3_v1 : W3 m ρ c (Proc.devRef .tc main_v1) = src X1 := (host1_v1 (W2 m ρ c)).trans (b2_v1 m ρ c)
theorem b3_v3 : W3 m ρ c (Proc.devRef .tc main_v3) = dst X1 := (host1_v3 (W2 m ρ c)).trans (b2_v3 m ρ c)
theorem b3_v26 : W3 m ρ c (Proc.devRef .tc main_v26) = coef X1 := (host1_v26 (W2 m ρ c)).trans (b2_v26 m ρ c)
theorem b3_v28 : W3 m ρ c (Proc.devRef .tc main_v28) = selfc X1 := (host1_v28 (W2 m ρ c)).trans (b2_v28 m ρ c)
theorem b3_arg2 : W3 m ρ c (Proc.devRef .tc main_arg2) = X2 := (host1_arg2 (W2 m ρ c)).trans (b2_arg2 m ρ c)
theorem b3_arg5 : W3 m ρ c (Proc.devRef .tc main_arg5) = X5 := (host1_arg5 (W2 m ρ c)).trans (b2_arg5 m ρ c)
theorem b3_arg6 : W3 m ρ c (Proc.devRef .tc main_arg6) = X6 := (host1_arg6 (W2 m ρ c)).trans (b2_arg6 m ρ c)

/-! ## Boundaries 4 and 5: after region 1 (bias and rectification) and region 2 (the second matrix product) -/

section
variable (hf0 : ∀ (V : (c : Dev nD) → (b : Ref sig .tc) → Buf (Elt Ideal) ((c : Thread nD τ).loc b)) (c : Dev nD),
  (dat0 (F := Ideal) V c).arrAt 2 cfg0.N = mm1 (V c main_arg0) (V c main_arg3))
  (hf1 : ∀ (V : (c : Dev nD) → (b : Ref sig .tc) → Buf (Elt Ideal) ((c : Thread nD τ).loc b)) (c : Dev nD),
  (dat1 (F := Ideal) V c).arrAt 2 cfg1.N = biasRelu (V c main_v44) (V c main_v45))
  (hf2 : ∀ (V : (c : Dev nD) → (b : Ref sig .tc) → Buf (Elt Ideal) ((c : Thread nD τ).loc b)) (c : Dev nD),
  (dat2 (F := Ideal) V c).arrAt 2 cfg2.N = mm2 (V c main_v46) (V c main_arg5))
include hf0 hf1
theorem b4_v46 : W4 m ρ c (Proc.devRef .tc main_v46) = biasRelu (layer (mm1 X0 X3) X1) (brow X4) :=
  (W4_arr m ρ c 2).trans ((hf1 (V3 m ρ) c).trans (congrArg₂ biasRelu (b3_v44 m ρ c hf0) (b3_v45 m ρ c)))
end
theorem b4_v1 : W4 m ρ c (Proc.devRef .tc main_v1) = src X1 := (W4_of_ne m ρ c main_v1 (by decide)).trans (b3_v1 m ρ c)
theorem b4_v3 : W4 m ρ c (Proc.devRef .tc main_v3) = dst X1 := (W4_of_ne m ρ c main_v3 (by decide)).trans (b3_v3 m ρ c)
theorem b4_v26 : W4 m ρ c (Proc.devRef .tc main_v26) = coef X1 := (W4_of_ne m ρ c main_v26 (by decide)).trans (b3_v26 m ρ c)
theorem b4_v28 : W4 m ρ c (Proc.devRef .tc main_v28) = selfc X1 := (W4_of_ne m ρ c main_v28 (by decide)).trans (b3_v28 m ρ c)
theorem b4_arg2 : W4 m ρ c (Proc.devRef .tc main_arg2) = X2 := (W4_of_ne m ρ c main_arg2 (by decide)).trans (b3_arg2 m ρ c)
theorem b4_arg5 : W4 m ρ c (Proc.devRef .tc main_arg5) = X5 := (W4_of_ne m ρ c main_arg5 (by decide)).trans (b3_arg5 m ρ c)
theorem b4_arg6 : W4 m ρ c (Proc.devRef .tc main_arg6) = X6 := (W4_of_ne m ρ c main_arg6 (by decide)).trans (b3_arg6 m ρ c)

section
variable (hf0 : ∀ (V : (c : Dev nD) → (b : Ref sig .tc) → Buf (Elt Ideal) ((c : Thread nD τ).loc b)) (c : Dev nD),
  (dat0 (F := Ideal) V c).arrAt 2 cfg0.N = mm1 (V c main_arg0) (V c main_arg3))
  (hf1 : ∀ (V : (c : Dev nD) → (b : Ref sig .tc) → Buf (Elt Ideal) ((c : Thread nD τ).loc b)) (c : Dev nD),
  (dat1 (F := Ideal) V c).arrAt 2 cfg1.N = biasRelu (V c main_v44) (V c main_v45))
  (hf2 : ∀ (V : (c : Dev nD) → (b : Ref sig .tc) → Buf (Elt Ideal) ((c : Thread nD τ).loc b)) (c : Dev nD),
  (dat2 (F := Ideal) V c).arrAt 2 cfg2.N = mm2 (V c main_v46) (V c main_arg5))
include hf0 hf1 hf2
theorem b5_v47 : W5 m ρ c (Proc.devRef .tc main_v47) = mm2 (biasRelu (layer (mm1 X0 X3) X1) (brow X4)) X5 :=
  (W5_arr m ρ c 2).trans ((hf2 (V4 m ρ) c).trans (congrArg₂ mm2 (b4_v46 m ρ c hf0 hf1) (b4_arg5 m ρ c)))
end
theorem b5_v1 : W5 m ρ c (Proc.devRef .tc main_v1) = src X1 := (W5_of_ne m ρ c main_v1 (by decide)).trans (b4_v1 m ρ c)
theorem b5_v3 : W5 m ρ c (Proc.devRef .tc main_v3) = dst X1 := (W5_of_ne m ρ c main_v3 (by decide)).trans (b4_v3 m ρ c)
theorem b5_v26 : W5 m ρ c (Proc.devRef .tc main_v26) = coef X1 := (W5_of_ne m ρ c main_v26 (by decide)).trans (b4_v26 m ρ c)
theorem b5_v28 : W5 m ρ c (Proc.devRef .tc main_v28) = selfc X1 := (W5_of_ne m ρ c main_v28 (by decide)).trans (b4_v28 m ρ c)
theorem b5_arg2 : W5 m ρ c (Proc.devRef .tc main_arg2) = X2 := (W5_of_ne m ρ c main_arg2 (by decide)).trans (b4_arg2 m ρ c)
theorem b5_arg6 : W5 m ρ c (Proc.devRef .tc main_arg6) = X6 := (W5_of_ne m ρ c main_arg6 (by decide)).trans (b4_arg6 m ρ c)

/-! ## Boundaries 6 and 7: after layer 2's message passing and region 3 (its bias): the node embeddings -/

section
variable (hf0 : ∀ (V : (c : Dev nD) → (b : Ref sig .tc) → Buf (Elt Ideal) ((c : Thread nD τ).loc b)) (c : Dev nD),
  (dat0 (F := Ideal) V c).arrAt 2 cfg0.N = mm1 (V c main_arg0) (V c main_arg3))
  (hf1 : ∀ (V : (c : Dev nD) → (b : Ref sig .tc) → Buf (Elt Ideal) ((c : Thread nD τ).loc b)) (c : Dev nD),
  (dat1 (F := Ideal) V c).arrAt 2 cfg1.N = biasRelu (V c main_v44) (V c main_v45))
  (hf2 : ∀ (V : (c : Dev nD) → (b : Ref sig .tc) → Buf (Elt Ideal) ((c : Thread nD τ).loc b)) (c : Dev nD),
  (dat2 (F := Ideal) V c).arrAt 2 cfg2.N = mm2 (V c main_v46) (V c main_arg5))
  (hf3 : ∀ (V : (c : Dev nD) → (b : Ref sig .tc) → Buf (Elt Ideal) ((c : Thread nD τ).loc b)) (c : Dev nD),
  (dat3 (F := Ideal) V c).arrAt 2 cfg3.N = bias (V c main_v62) (V c main_v63))
  (hf4 : ∀ (V : (c : Dev nD) → (b : Ref sig .tc) → Buf (Elt Ideal) ((c : Thread nD τ).loc b)) (c : Dev nD),
  (dat4 (F := Ideal) V c).arrAt 2 cfg4.N = dec (V c main_v84) (V c main_v85))
include hf0 hf1 hf2

theorem b6_v62 : W6 m ρ c (Proc.devRef .tc main_v62) = layer (mm2 (biasRelu (layer (mm1 X0 X3) X1) (brow X4)) X5) X1 :=
  host3_v62 (W5 m ρ c) _ _ (b5_v47 m ρ c hf0 hf1 hf2) (b5_v1 m ρ c) (b5_v3 m ρ c) (b5_v26 m ρ c) (b5_v28 m ρ c)
omit hf0 hf1 hf2 in
theorem b6_v63 : W6 m ρ c (Proc.devRef .tc main_v63) = brow X6 := host3_v63 (W5 m ρ c) _ (b5_arg6 m ρ c)
omit hf0 hf1 hf2 in
theorem b6_arg2 : W6 m ρ c (Proc.devRef .tc main_arg2) = X2 := (host3_arg2 (W5 m ρ c)).trans (b5_arg2 m ρ c)

include hf3
theorem b7_v64 : W7 m ρ c (Proc.devRef .tc main_v64) = embed X0 X1 X3 X4 X5 X6 :=
  (W7_arr m ρ c 2).trans ((hf3 (V6 m ρ) c).trans (congrArg₂ bias (b6_v62 m ρ c hf0 hf1 hf2) (b6_v63 m ρ c)))
omit hf0 hf1 hf2 hf3 in
theorem b7_arg2 : W7 m ρ c (Proc.devRef .tc main_arg2) = X2 := (W7_of_ne m ρ c main_arg2 (by decide)).trans (b6_arg2 m ρ c)

/-! ## Boundaries 8 to 11: the decoder's two operands, gathered feature-major and padded -/

theorem b8_v76 : W8 m ρ c (Proc.devRef .tc main_v76)
    = Host.gather gather_S128x100000_S200000x1_S128x200000_0_1_n_n_1_1_1281 (featMajor (embed X0 X1 X3 X4 X5 X6)) (labelCol0 X2) :=
  host4_v76 (W7 m ρ c) _ _ (b7_v64 m ρ c hf0 hf1 hf2 hf3) (b7_arg2 m ρ c)
theorem b8_v83 : W8 m ρ c (Proc.devRef .tc main_v83)
    = Host.gather gather_S128x100000_S200000x1_S128x200000_0_1_n_n_1_1_1281 (featMajor (embed X0 X1 X3 X4 X5 X6)) (labelCol1 X2) :=
  host4_v83 (W7 m ρ c) _ _ (b7_v64 m ρ c hf0 hf1 hf2 hf3) (b7_arg2 m ρ c)
theorem b9_v84 : W9 m ρ c (Proc.devRef .tc main_v84) = pickPad (featMajor (embed X0 X1 X3 X4 X5 X6)) (labelCol0 X2) :=
  host41_v84 (W8 m ρ c) _ _ (b8_v76 m ρ c hf0 hf1 hf2 hf3) (host4_c15 (W7 m ρ c))
theorem b9_v83 : W9 m ρ c (Proc.devRef .tc main_v83)
    = Host.gather gather_S128x100000_S200000x1_S128x200000_0_1_n_n_1_1_1281 (featMajor (embed X0 X1 X3 X4 X5 X6)) (labelCol1 X2) :=
  (host41_v83 (W8 m ρ c)).trans (b8_v83 m ρ c hf0 hf1 hf2 hf3)
theorem b10_v83 : W10 m ρ c (Proc.devRef .tc main_v83)
    = Host.gather gather_S128x100000_S200000x1_S128x200000_0_1_n_n_1_1_1281 (featMajor (embed X0 X1 X3 X4 X5 X6)) (labelCol1 X2) :=
  (host42_v83 (W9 m ρ c)).trans (b9_v83 m ρ c hf0 hf1 hf2 hf3)
theorem b10_v84 : W10 m ρ c (Proc.devRef .tc main_v84) = pickPad (featMajor (embed X0 X1 X3 X4 X5 X6)) (labelCol0 X2) :=
  (host42_v84 (W9 m ρ c)).trans (b9_v84 m ρ c hf0 hf1 hf2 hf3)
theorem b11_v85 : W11 m ρ c (Proc.devRef .tc main_v85) = pickPad (featMajor (embed X0 X1 X3 X4 X5 X6)) (labelCol1 X2) :=
  host43_v85 (W10 m ρ c) _ _ (b10_v83 m ρ c hf0 hf1 hf2 hf3) (host42_c16 (W9 m ρ c))
theorem b11_v84 : W11 m ρ c (Proc.devRef .tc main_v84) = pickPad (featMajor (embed X0 X1 X3 X4 X5 X6)) (labelCol0 X2) :=
  (host43_v84 (W10 m ρ c)).trans (b10_v84 m ρ c hf0 hf1 hf2 hf3)

/-! ## Boundaries 12 and 13: after the decoder region, and the result -/

include hf4
theorem b12_v86 : W12 m ρ c (Proc.devRef .tc main_v86)
    = dec (pickPad (featMajor (embed X0 X1 X3 X4 X5 X6)) (labelCol0 X2)) (pickPad (featMajor (embed X0 X1 X3 X4 X5 X6)) (labelCol1 X2)) :=
  (W12_arr m ρ c 2).trans ((hf4 (V11 m ρ) c).trans (congrArg₂ dec (b11_v84 m ρ c hf0 hf1 hf2 hf3) (b11_v85 m ρ c hf0 hf1 hf2 hf3)))

/-- The result buffer at the last boundary is the specification's composition of the launch arguments. -/
theorem b13_v88 : W13 m ρ c (Proc.devRef .tc main_v88) = out X0 X1 X2 X3 X4 X5 X6 :=
  host5_v88 (W12 m ρ c) _ (b12_v86 m ρ c hf0 hf1 hf2 hf3 hf4)
end

end Cert.Gcn

end
-- ==== Proof.Region0.lean ====
/-
  Region 0 of the program: the first layer's feature transform X · W1.

  The region runs over a grid of 20 points. At point t its first window holds rows 5000·t … 5000·t + 4999 of the
  [100000, 256] array X (all 256 columns), its second window holds the whole [256, 128] array W1 at every point, and the
  body writes into the third window's [5000, 128] block the product of the two blocks accumulated into zero; at the
  ideal values the narrowing of both operands to bf16 changes nothing. That block is written back to rows
  5000·t … 5000·t + 4999 of the [100000, 128] result. Entry (r, j) of the block at point t is therefore
  Σ_k X(5000·t + r, k) · W1(k, j), which depends on row 5000·t + r of X and column j of W1 only, and the twenty row
  blocks tile the result: row p is written at point p / 5000 and at no other. So the result is X · W1.
-/
import proofs.«149319_j55490977465143_1_alg».proof.Proof.Gen.KernelIdeal.Frame
import proofs.«149319_j55490977465143_1_alg».proof.Proof.Spec
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.TcCoe Idealize.SL.Sem
open Idealize.ShloMosaic.Pipeline (Dat)
open Cert.KernelIdeal Cert.KernelIdeal.Gen

/-! ## The body's product at an entry -/

/-- The left operand's index at output entry i and contraction index q has i's row … -/
theorem lhs0_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- … and the contraction index as its column. -/
theorem lhs0_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's index has the contraction index as its row … -/
theorem rhs0_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- … and i's column. -/
theorem rhs0_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry i of what the body stores, from the two loaded blocks: the sum over k of the first block at (row of i, k)
    times the second at (k, column of i). The accumulator is the zero splat and the two narrowings are the identity
    on extended reals. -/
theorem pay0_apply (x0 : Vec Ideal S5000x256 .f32) (x1 : Vec Ideal S256x128 .f32) (i : S5000x128.Idx) :
    k0_pay1 (F := Ideal) x0 x1 i = ∑ k : Fin 256, x0 (rowK i k) * x1 (kCol i k) := by
  unfold k0_pay1
  refine (Ideal.matmul_constant_zero_apply dot_S5000x256_S256x128_S5000x128_1_0_0_1_n_n none _ _ i).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx i ((ValueIdx.contrEquiv1 dot_S5000x256_S256x128_S5000x128_1_0_0_1_n_n 256 rfl rfl).symm k) = rowK i k := funext fun a => Fin.ext (by
    match a with
    | ⟨0, _⟩ => exact lhs0_row _ _
    | ⟨1, _⟩ => exact (lhs0_col _ _).trans hk)
  have er : dot_S5000x256_S256x128_S5000x128_1_0_0_1_n_n.rhsIdx i ((ValueIdx.contrEquiv1 dot_S5000x256_S256x128_S5000x128_1_0_0_1_n_n 256 rfl rfl).symm k) = kCol i k := funext fun a => Fin.ext (by
    match a with
    | ⟨0, _⟩ => exact (rhs0_row _ _).trans hk
    | ⟨1, _⟩ => exact rhs0_col _ _)
  show x0 _ * x1 _ = _
  rw [el, er]

variable (V : (c : Dev nD) → (b : Ref sig .tc) → Buf (Elt Ideal) ((c : Thread nD τ).loc b))

/-! ## Which rows and columns each window's block holds -/

theorem zeroOffsets0 : (![0, 0] : Fin 2 → Nat) = fun _ => 0 := funext fun a => by fin_cases a <;> rfl

/-- The three windows' block indices at grid point t, decided over the twenty points: the first operand's and the
    result's blocks are row block t (their one column block is 0), the second operand's block is always block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first window's block at point t is rows 5000·t … 5000·t + 4999 of X, all columns. -/
theorem xBlock0_apply (c : Dev nD) (t : Fin cfg0.N) (y : S5000x256.Idx) (i : S100000x256.Idx)
    (h0 : (i 0).val = 5000 * t.val + (y 0).val) (h1 : (i 1).val = (y 1).val) :
    (iblk0 V c 0 t : Vec Ideal S5000x256 .f32) y = (V c main_arg0 : S100000x256.Idx → Elt Ideal .f32) i := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- The second window's block at every point is the whole of W1. -/
theorem wBlock0_apply (c : Dev nD) (t : Fin cfg0.N) (y : S256x128.Idx) (i : S256x128.Idx)
    (h0 : (i 0).val = (y 0).val) (h1 : (i 1).val = (y 1).val) :
    (iblk0 V c 1 t : Vec Ideal S256x128 .f32) y = (V c main_arg3 : S256x128.Idx → Elt Ideal .f32) i := by
  obtain ⟨-, -, e0, e1, -⟩ := blockIdx0 t
  unfold iblk0
  rw [View.read_apply]
  show V c main_arg3 _ = V c main_arg3 _
  congr 1
  funext a
  apply Fin.ext
  match a with
  | ⟨0, _⟩ => show win0_1.index t (0 : Fin 2) * 256 + 1 * (y 0).val = (i 0).val; omega
  | ⟨1, _⟩ => show win0_1.index t (1 : Fin 2) * 128 + 1 * (y 1).val = (i 1).val; omega

/-! ## From the blocks to the array -/

/-- What point t writes back is block t of X · W1: entry (r, j) of the stored product reads row 5000·t + r of X and
    column j of W1, which is where the result's block t puts its entry (r, j). -/
theorem flushed0_eq (c : Dev nD) (t : Fin cfg0.N) :
    (dat0 (F := Ideal) V c).flushed 2 t
      = ((cfg0.win 2).blk t).view.read (Elt Ideal) (mm1 (V c main_arg0) (V c main_arg3)) := by
  show (cfg0.win 2).cut (grid0.coords t) ((dat0 (F := Ideal) V c).after 2 t) = _
  rw [after0_2]
  unfold out0_2
  rw [View.canon_unit_zero zeroOffsets0]
  simp only [View.ld_unit_zero (S := S5000x256) zeroOffsets0, View.ld_unit_zero (S := S256x128) zeroOffsets0]
  obtain ⟨-, -, -, -, e0, e1⟩ := blockIdx0 t
  funext j
  show k0_pay1 (iblk0 V c 0 t) (iblk0 V c 1 t) j
    = mm1 (V c main_arg0) (V c main_arg3) (((cfg0.win 2).blk t).view.emb j)
  refine (pay0_apply (iblk0 V c 0 t) (iblk0 V c 1 t) j).trans ?_
  unfold mm1
  refine Finset.sum_congr rfl fun k _ => ?_
  refine congrArg₂ (· * ·)
    (xBlock0_apply V c t (rowK j k) (rowK (((cfg0.win 2).blk t).view.emb j) k) ?_ rfl)
    (wBlock0_apply V c t (kCol j k) (kCol (((cfg0.win 2).blk t).view.emb j) k) rfl ?_)
  · show win0_2.index t (0 : Fin 2) * 5000 + 1 * (j 0).val = 5000 * t.val + (j 0).val; omega
  · show win0_2.index t (1 : Fin 2) * 128 + 1 * (j 1).val = (j 1).val; omega

/-- An index of the result is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- The twenty row blocks tile the result: row p lies in the block of point p / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, e0, e1⟩ := blockIdx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the region is X · W1. -/
theorem final0 (c : Dev nD) : (dat0 (F := Ideal) V c).arrAt 2 cfg0.N = mm1 (V c main_arg0) (V c main_arg3) :=
  (dat0 (F := Ideal) V c).arrAt_eq_of_cover 2 (mm1 (V c main_arg0) (V c main_arg3))
    (fun t _ => flushed0_eq V c t) cover0

end Cert.Gcn

end
-- ==== Proof.Region1.lean ====
/-
  Region 1 of the program: the bias addition of the first layer, followed by the maximum with zero.

  The region walks a grid of 20 points. At point t the first operand's block is rows 5000·t … 5000·t + 4999 (all
  128 columns) of the [100000, 128] array A; the second operand's block is, at every point, the whole one-row
  [1, 128] array b; the body stores, into the output's block, the first block plus the bias row repeated down the
  5000 rows, then the entrywise maximum with the constant 0; the output's block is written back to the same rows 5000·t … of the [100000, 128]
  result. So entry (p, j) of the result depends on A(p, j) and b(0, j) only and equals max(A(p, j) + b(0, j), 0): it is
  written by the one point p / 5000, and the 20 blocks tile the 100000 rows.

  The steps: the body's stored value at an entry (r, j) of a block (`pay1_apply`); where the three windows' blocks sit
  at each of the 20 points (`idx_facts1`, by evaluation); the two input blocks as entries of the arrays (`iblk1_0_apply`,
  `iblk1_1_apply`); one stored entry as the closed form at its place in the array (`point1`); what a point writes
  back is its block of the closed form (`flushed1_eq`); every entry lies in some point's block (`mem_blk1`, `cover1`);
  the result array is the closed form (`final1`).
-/
import proofs.«149319_j55490977465143_1_alg».proof.Proof.Gen.KernelIdeal.Frame
import proofs.«149319_j55490977465143_1_alg».proof.Proof.Spec
import Idealize.ShloMosaic.Lib.ValueIdx
import Idealize.ShloMosaic.Lib.Pipeline.Value
import Idealize.ShloMosaic.Lib.ValueLayout

noncomputable section

namespace Cert.Gcn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, as a constant function. -/
theorem zeros_r1 : (![0, 0] : Fin 2 → Nat) = fun _ => 0 := funext fun a => by fin_cases a <;> rfl

/-- The body's stored value at entry (r, j) of a block: the first block's entry (r, j) plus the bias row's entry
    (0, j), then the maximum with 0. The two casts to the same shape are identities; the broadcast of the one row reads row 0. -/
theorem pay1_apply (x0 : Vec Ideal S5000x128 .f32) (x1 : Vec Ideal S1x128 .f32) (r : Fin 5000) (j : Fin 128) :
    k1_pay1 x0 x1 (ix2 r j)
      = FloatOps.maximumf (FloatOps.addf (x0 (ix2 r j)) (x1 (ix2 (0 : Fin 1) j))) (FloatOps.ofBits .f32 0x00000000#32) := by
  unfold k1_pay1
  rw [shapeCast_self, shapeCast_self]
  have hb : broadcastTo S5000x128 x1 broadcasts_S1x128_S5000x128 (ix2 r j) = x1 (ix2 (0 : Fin 1) j) :=
    broadcastTo_1b_ab_apply x1 _ r j
  show FloatOps.maximumf (F := Ideal) (φ := .f32) (FloatOps.addf (x0 (ix2 r j)) (broadcastTo S5000x128 x1 broadcasts_S1x128_S5000x128 (ix2 r j))) _ = _
  rw [hb]
  rfl

/-- Where the blocks sit, decided over the 20 points: at point t the first operand's and the output's block index is
    (t, 0), the bias row's is (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first operand's block at point t, read at x, is the array at row 5000·t + (row of x), column of x. -/
theorem iblk1_0_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v44 : S100000x128.Idx → Elt Ideal .f32) k := by
  obtain ⟨e0, e1, -⟩ := idx_facts1 t
  unfold iblk1
  rw [View.read_apply]
  show V c main_v44 _ = V c main_v44 _
  refine congrArg (V c main_v44) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The bias operand's block at every point is the whole one-row array. -/
theorem iblk1_1_apply (c : Dev nD) (t : Fin cfg1.N) (x : S1x128.Idx) :
    (iblk1 V c 1 t : Vec Ideal S1x128 .f32) x = (V c main_v45 : S1x128.Idx → Elt Ideal .f32) x := by
  obtain ⟨-, -, e0, e1, -⟩ := idx_facts1 t
  unfold iblk1
  rw [View.read_apply]
  show V c main_v45 _ = V c main_v45 _
  refine congrArg (V c main_v45) (funext fun a => Fin.ext ?_)
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- One stored entry is the closed form at its place: if the first block's entry y is the array's entry k, the bias
    block is the bias array, and k has y's column, then the stored value at y is max(A(p, j) + b(0, j), 0) at k = (p, j). -/
theorem point1 (x0 : Vec Ideal S5000x128 .f32) (x1 : Vec Ideal S1x128 .f32)
    (a : FArr Ideal S100000x128) (b : FArr Ideal S1x128) (y : S5000x128.Idx) (k : S100000x128.Idx)
    (h0 : x0 y = a k) (h1 : ∀ z, x1 z = b z) (hk : (k 1).val = (y 1).val) :
    k1_pay1 x0 x1 y = biasRelu a b k := by
  obtain ⟨r, j, rfl⟩ : ∃ (r : Fin 5000) (j : Fin 128), y = ix2 r j := ⟨y 0, y 1, eq_ix2 y⟩
  rw [pay1_apply, h0, h1]
  have hz : zeroCol k = ix2 (0 : Fin 1) j := funext fun d => Fin.ext (by
    match d with
    | ⟨0, _⟩ => rfl
    | ⟨1, _⟩ => exact hk)
  unfold biasRelu
  rw [hz]

/-- What point t writes back is block t of the closed form: the body leaves its one whole-block store in the output's
    buffer, and entry y of that block sits in the array at row 5000·t + (row of y), where the first operand's entry y
    sits too. -/
theorem flushed1_eq (c : Dev nD) (t : Fin cfg1.N) :
    (dat1 V c).flushed 2 t
      = ((cfg1.win 2).blk t).view.read (Elt Ideal) (biasRelu (V c main_v44) (V c main_v45)) := by
  show (cfg1.win 2).cut (grid1.coords t) ((dat1 V c).after 2 t) = _
  rw [after1_2]
  unfold out1_2
  rw [View.canon_unit_zero zeros_r1]
  simp only [View.ld_unit_zero (S := S5000x128) zeros_r1, View.ld_unit_zero (S := S1x128) zeros_r1]
  obtain ⟨-, -, -, -, e0, e1⟩ := idx_facts1 t
  funext y
  rw [View.read_apply]
  refine point1 (iblk1 V c 0 t) (iblk1 V c 1 t) (V c main_v44) (V c main_v45) _ _
    (iblk1_0_apply V c t _ _ ?_ ?_) (iblk1_1_apply V c t) ?_
  · show win1_2.index t (0 : Fin 2) * 5000 + 1 * (y 0).val = 5000 * t.val + (y 0).val; rw [e0]; omega
  · show win1_2.index t (1 : Fin 2) * 128 + 1 * (y 1).val = (y 1).val; rw [e1]; omega
  · show win1_2.index t (1 : Fin 2) * 128 + 1 * (y 1).val = (y 1).val; rw [e1]; omega

/-- An index of the result array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every entry (p, j) of the result lies in the block of the point p / 5000, which is written back. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hq : (i 0).val / 5000 < 20 := by omega
  obtain ⟨-, -, -, -, e0, e1⟩ := idx_facts1 ⟨(i 0).val / 5000, hq⟩
  refine ⟨⟨(i 0).val / 5000, hq⟩, flush1_2 _, ?_⟩
  rw [mem_blk1]
  intro a
  match a with
  | ⟨0, _⟩ =>
    show win1_2.index ⟨(i 0).val / 5000, hq⟩ (0 : Fin 2) * 5000 ≤ (i 0).val ∧ (i 0).val < win1_2.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_2.index ⟨(i 0).val / 5000, hq⟩ (1 : Fin 2) * 128 ≤ (i 1).val ∧ (i 1).val < win1_2.index ⟨(i 0).val / 5000, hq⟩ (1 : Fin 2) * 128 + 128
    rw [e1]; omega

/-- The region's result array: entry (p, j) is max(A(p, j) + b(0, j), 0), the bias row repeated down the rows. -/
theorem final1 (c : Dev nD) : (dat1 (F := Ideal) V c).arrAt 2 cfg1.N = biasRelu (V c main_v44) (V c main_v45) :=
  (dat1 V c).arrAt_eq_of_cover 2 (biasRelu (V c main_v44) (V c main_v45)) (fun t _ => flushed1_eq V c t) cover1

end Cert.Gcn

end
-- ==== Proof.Region2.lean ====
/-
  Region 2 of the program: the second layer's feature transform H · W2.

  The region runs over a grid of 20 points. At point t its first window holds rows 5000·t … 5000·t + 4999 of the
  [100000, 128] array H (all 128 columns), its second window holds the whole [128, 128] array W2 at every point, and the
  body writes into the third window's [5000, 128] block the product of the two blocks accumulated into zero; the cast
  of the first block to its own shape is the identity, and at the ideal values so is the narrowing of both operands
  to bf16. That block is written back to rows 5000·t … 5000·t + 4999 of the [100000, 128] result. Entry (r, j) of the
  block at point t is therefore Σ_k H(5000·t + r, k) · W2(k, j), which depends on row 5000·t + r of H and column j of W2
  only, and the twenty row blocks tile the result: row p is written at point p / 5000 and at no other. So the result
  is H · W2.
-/
import proofs.«149319_j55490977465143_1_alg».proof.Proof.Gen.KernelIdeal.Frame
import proofs.«149319_j55490977465143_1_alg».proof.Proof.Spec
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.TcCoe Idealize.SL.Sem
open Idealize.ShloMosaic.Pipeline (Dat)
open Cert.KernelIdeal Cert.KernelIdeal.Gen

/-! ## The body's product at an entry -/

/-- The left operand's index at output entry i and contraction index q has i's row … -/
theorem lhs2_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction index as its column. -/
theorem lhs2_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index has the contraction index as its row … -/
theorem rhs2_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and i's column. -/
theorem rhs2_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry i of what the body stores, from the two loaded blocks: the sum over k of the first block at (row of i, k)
    times the second at (k, column of i). The accumulator is the zero splat, the cast of the first block to its own
    shape is the identity, and the two narrowings are the identity on extended reals. -/
theorem pay2_apply (x0 : Vec Ideal S5000x128 .f32) (x1 : Vec Ideal S128x128 .f32) (i : S5000x128.Idx) :
    k2_pay1 (F := Ideal) x0 x1 i = ∑ k : Fin 128, x0 (rowK i k) * x1 (kCol i k) := by
  have hs : shapeCast S5000x128 x0 shapeCasts_S5000x128_S5000x128 = x0 := shapeCast_self x0 _
  unfold k2_pay1
  refine (Ideal.matmul_constant_zero_apply dot_S5000x128_S128x128_S5000x128_1_0_0_1_n_n none _ _ i).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowK i k := funext fun a => Fin.ext (by
    match a with
    | ⟨0, _⟩ => exact lhs2_row _ _
    | ⟨1, _⟩ => exact (lhs2_col _ _).trans hk)
  have er : dot_S5000x128_S128x128_S5000x128_1_0_0_1_n_n.rhsIdx i ((ValueIdx.contrEquiv1 dot_S5000x128_S128x128_S5000x128_1_0_0_1_n_n 128 rfl rfl).symm k) = kCol i k := funext fun a => Fin.ext (by
    match a with
    | ⟨0, _⟩ => exact (rhs2_row _ _).trans hk
    | ⟨1, _⟩ => exact rhs2_col _ _)
  show shapeCast S5000x128 x0 shapeCasts_S5000x128_S5000x128 _ * x1 _ = _
  rw [hs, el, er]

variable (V : (c : Dev nD) → (b : Ref sig .tc) → Buf (Elt Ideal) ((c : Thread nD τ).loc b))

/-! ## Which rows and columns each window's block holds -/

theorem zeroOffsets2 : (![0, 0] : Fin 2 → Nat) = fun _ => 0 := funext fun a => by fin_cases a <;> rfl

/-- The three windows' block indices at grid point t, decided over the twenty points: the first operand's and the
    result's blocks are row block t (their one column block is 0), the second operand's block is always block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first window's block at point t is rows 5000·t … 5000·t + 4999 of H, all columns. -/
theorem hBlock2_apply (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c main_v46 : S100000x128.Idx → Elt Ideal .f32) i := by
  obtain ⟨e0, e1, -⟩ := blockIdx2 t
  unfold iblk2
  rw [View.read_apply]
  show V c main_v46 _ = V c main_v46 _
  congr 1
  funext a
  apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The second window's block at every point is the whole of W2. -/
theorem wBlock2_apply (c : Dev nD) (t : Fin cfg2.N) (y : S128x128.Idx) (i : S128x128.Idx)
    (h0 : (i 0).val = (y 0).val) (h1 : (i 1).val = (y 1).val) :
    (iblk2 V c 1 t : Vec Ideal S128x128 .f32) y = (V c main_arg5 : S128x128.Idx → Elt Ideal .f32) i := by
  obtain ⟨-, -, e0, e1, -⟩ := blockIdx2 t
  unfold iblk2
  rw [View.read_apply]
  show V c main_arg5 _ = V c main_arg5 _
  congr 1
  funext a
  apply Fin.ext
  match a with
  | ⟨0, _⟩ => show win2_1.index t (0 : Fin 2) * 128 + 1 * (y 0).val = (i 0).val; omega
  | ⟨1, _⟩ => show win2_1.index t (1 : Fin 2) * 128 + 1 * (y 1).val = (i 1).val; omega

/-! ## From the blocks to the array -/

/-- What point t writes back is block t of H · W2: entry (r, j) of the stored product reads row 5000·t + r of H and
    column j of W2, which is where the result's block t puts its entry (r, j). -/
theorem flushed2_eq (c : Dev nD) (t : Fin cfg2.N) :
    (dat2 (F := Ideal) V c).flushed 2 t
      = ((cfg2.win 2).blk t).view.read (Elt Ideal) (mm2 (V c main_v46) (V c main_arg5)) := by
  show (cfg2.win 2).cut (grid2.coords t) ((dat2 (F := Ideal) V c).after 2 t) = _
  rw [after2_2]
  unfold out2_2
  rw [View.canon_unit_zero zeroOffsets2]
  simp only [View.ld_unit_zero (S := S5000x128) zeroOffsets2, View.ld_unit_zero (S := S128x128) zeroOffsets2]
  obtain ⟨-, -, -, -, e0, e1⟩ := blockIdx2 t
  funext j
  show k2_pay1 (iblk2 V c 0 t) (iblk2 V c 1 t) j
    = mm2 (V c main_v46) (V c main_arg5) (((cfg2.win 2).blk t).view.emb j)
  refine (pay2_apply (iblk2 V c 0 t) (iblk2 V c 1 t) j).trans ?_
  unfold mm2
  refine Finset.sum_congr rfl fun k _ => ?_
  refine congrArg₂ (· * ·)
    (hBlock2_apply V c t (rowK j k) (rowK (((cfg2.win 2).blk t).view.emb j) k) ?_ rfl)
    (wBlock2_apply V c t (kCol j k) (kCol (((cfg2.win 2).blk t).view.emb j) k) rfl ?_)
  · show win2_2.index t (0 : Fin 2) * 5000 + 1 * (j 0).val = 5000 * t.val + (j 0).val; omega
  · show win2_2.index t (1 : Fin 2) * 128 + 1 * (j 1).val = (j 1).val; omega

/-- An index of the result is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v47).slice (win2_2.rect t)).set ↔ _
  rw [View.set_slice_whole, Rect.mem_set_unit]
  exact Iff.rfl

/-- The twenty row blocks tile the result: row p lies in the block of point p / 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, e0, e1⟩ := blockIdx2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The result array after the region is H · W2. -/
theorem final2 (c : Dev nD) : (dat2 (F := Ideal) V c).arrAt 2 cfg2.N = mm2 (V c main_v46) (V c main_arg5) :=
  (dat2 (F := Ideal) V c).arrAt_eq_of_cover 2 (mm2 (V c main_v46) (V c main_arg5))
    (fun t _ => flushed2_eq V c t) cover2

end Cert.Gcn

end
-- ==== Proof.Region3.lean ====
/-
  Region 3 of the program: the bias addition of the second layer.

  The region walks a grid of 20 points. At point t the first operand's block is rows 5000·t … 5000·t + 4999 (all
  128 columns) of the [100000, 128] array A; the second operand's block is, at every point, the whole one-row
  [1, 128] array b; the body stores, into the output's block, the first block plus the bias row repeated down the
  5000 rows; the output's block is written back to the same rows 5000·t … of the [100000, 128]
  result. So entry (p, j) of the result depends on A(p, j) and b(0, j) only and equals A(p, j) + b(0, j): it is
  written by the one point p / 5000, and the 20 blocks tile the 100000 rows.

  The steps: the body's stored value at an entry (r, j) of a block (`pay3_apply`); where the three windows' blocks sit
  at each of the 20 points (`idx_facts3`, by evaluation); the two input blocks as entries of the arrays (`iblk3_0_apply`,
  `iblk3_1_apply`); one stored entry as the closed form at its place in the array (`point3`); what a point writes
  back is its block of the closed form (`flushed3_eq`); every entry lies in some point's block (`mem_blk3`, `cover3`);
  the result array is the closed form (`final3`).
-/
import proofs.«149319_j55490977465143_1_alg».proof.Proof.Gen.KernelIdeal.Frame
import proofs.«149319_j55490977465143_1_alg».proof.Proof.Spec
import Idealize.ShloMosaic.Lib.ValueIdx
import Idealize.ShloMosaic.Lib.Pipeline.Value
import Idealize.ShloMosaic.Lib.ValueLayout

noncomputable section

namespace Cert.Gcn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, as a constant function. -/
theorem zeros_r3 : (![0, 0] : Fin 2 → Nat) = fun _ => 0 := funext fun a => by fin_cases a <;> rfl

/-- The body's stored value at entry (r, j) of a block: the first block's entry (r, j) plus the bias row's entry
    (0, j). The two casts to the same shape are identities; the broadcast of the one row reads row 0. -/
theorem pay3_apply (x0 : Vec Ideal S5000x128 .f32) (x1 : Vec Ideal S1x128 .f32) (r : Fin 5000) (j : Fin 128) :
    k3_pay1 x0 x1 (ix2 r j)
      = FloatOps.addf (x0 (ix2 r j)) (x1 (ix2 (0 : Fin 1) j)) := by
  unfold k3_pay1
  rw [shapeCast_self, shapeCast_self]
  have hb : broadcastTo S5000x128 x1 broadcasts_S1x128_S5000x128 (ix2 r j) = x1 (ix2 (0 : Fin 1) j) :=
    broadcastTo_1b_ab_apply x1 _ r j
  show FloatOps.addf (F := Ideal) (φ := .f32) (x0 (ix2 r j)) (broadcastTo S5000x128 x1 broadcasts_S1x128_S5000x128 (ix2 r j)) = _
  rw [hb]

/-- Where the blocks sit, decided over the 20 points: at point t the first operand's and the output's block index is
    (t, 0), the bias row's is (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first operand's block at point t, read at x, is the array at row 5000·t + (row of x), column of x. -/
theorem iblk3_0_apply (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c main_v62 : S100000x128.Idx → Elt Ideal .f32) k := by
  obtain ⟨e0, e1, -⟩ := idx_facts3 t
  unfold iblk3
  rw [View.read_apply]
  show V c main_v62 _ = V c main_v62 _
  refine congrArg (V c main_v62) (funext fun a => Fin.ext ?_)
  match a with
  | ⟨0, _⟩ => show win3_0.index t (0 : Fin 2) * 5000 + 1 * (x 0).val = (k 0).val; rw [e0, hk0]; omega
  | ⟨1, _⟩ => show win3_0.index t (1 : Fin 2) * 128 + 1 * (x 1).val = (k 1).val; rw [e1, hk1]; omega

/-- The bias operand's block at every point is the whole one-row array. -/
theorem iblk3_1_apply (c : Dev nD) (t : Fin cfg3.N) (x : S1x128.Idx) :
    (iblk3 V c 1 t : Vec Ideal S1x128 .f32) x = (V c main_v63 : S1x128.Idx → Elt Ideal .f32) x := by
  obtain ⟨-, -, e0, e1, -⟩ := idx_facts3 t
  unfold iblk3
  rw [View.read_apply]
  show V c main_v63 _ = V c main_v63 _
  refine congrArg (V c main_v63) (funext fun a => Fin.ext ?_)
  match a with
  | ⟨0, _⟩ => show win3_1.index t (0 : Fin 2) * 1 + 1 * (x 0).val = (x 0).val; rw [e0]; omega
  | ⟨1, _⟩ => show win3_1.index t (1 : Fin 2) * 128 + 1 * (x 1).val = (x 1).val; rw [e1]; omega

/-- One stored entry is the closed form at its place: if the first block's entry y is the array's entry k, the bias
    block is the bias array, and k has y's column, then the stored value at y is A(p, j) + b(0, j) at k = (p, j). -/
theorem point3 (x0 : Vec Ideal S5000x128 .f32) (x1 : Vec Ideal S1x128 .f32)
    (a : FArr Ideal S100000x128) (b : FArr Ideal S1x128) (y : S5000x128.Idx) (k : S100000x128.Idx)
    (h0 : x0 y = a k) (h1 : ∀ z, x1 z = b z) (hk : (k 1).val = (y 1).val) :
    k3_pay1 x0 x1 y = bias a b k := by
  obtain ⟨r, j, rfl⟩ : ∃ (r : Fin 5000) (j : Fin 128), y = ix2 r j := ⟨y 0, y 1, eq_ix2 y⟩
  rw [pay3_apply, h0, h1]
  have hz : zeroCol k = ix2 (0 : Fin 1) j := funext fun d => Fin.ext (by
    match d with
    | ⟨0, _⟩ => rfl
    | ⟨1, _⟩ => exact hk)
  unfold bias
  rw [hz]

/-- What point t writes back is block t of the closed form: the body leaves its one whole-block store in the output's
    buffer, and entry y of that block sits in the array at row 5000·t + (row of y), where the first operand's entry y
    sits too. -/
theorem flushed3_eq (c : Dev nD) (t : Fin cfg3.N) :
    (dat3 V c).flushed 2 t
      = ((cfg3.win 2).blk t).view.read (Elt Ideal) (bias (V c main_v62) (V c main_v63)) := by
  show (cfg3.win 2).cut (grid3.coords t) ((dat3 V c).after 2 t) = _
  rw [after3_2]
  unfold out3_2
  rw [View.canon_unit_zero zeros_r3]
  simp only [View.ld_unit_zero (S := S5000x128) zeros_r3, View.ld_unit_zero (S := S1x128) zeros_r3]
  obtain ⟨-, -, -, -, e0, e1⟩ := idx_facts3 t
  funext y
  rw [View.read_apply]
  refine point3 (iblk3 V c 0 t) (iblk3 V c 1 t) (V c main_v62) (V c main_v63) _ _
    (iblk3_0_apply V c t _ _ ?_ ?_) (iblk3_1_apply V c t) ?_
  · show win3_2.index t (0 : Fin 2) * 5000 + 1 * (y 0).val = 5000 * t.val + (y 0).val; rw [e0]; omega
  · show win3_2.index t (1 : Fin 2) * 128 + 1 * (y 1).val = (y 1).val; rw [e1]; omega
  · show win3_2.index t (1 : Fin 2) * 128 + 1 * (y 1).val = (y 1).val; rw [e1]; omega

/-- An index of the result array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v64).slice (win3_2.rect t)).set ↔ _
  rw [View.set_slice_whole, Rect.mem_set_unit]
  exact Iff.rfl

/-- Every entry (p, j) of the result lies in the block of the point p / 5000, which is written back. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hq : (i 0).val / 5000 < 20 := by omega
  obtain ⟨-, -, -, -, e0, e1⟩ := idx_facts3 ⟨(i 0).val / 5000, hq⟩
  refine ⟨⟨(i 0).val / 5000, hq⟩, flush3_2 _, ?_⟩
  rw [mem_blk3]
  intro a
  match a with
  | ⟨0, _⟩ =>
    show win3_2.index ⟨(i 0).val / 5000, hq⟩ (0 : Fin 2) * 5000 ≤ (i 0).val ∧ (i 0).val < win3_2.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win3_2.index ⟨(i 0).val / 5000, hq⟩ (1 : Fin 2) * 128 ≤ (i 1).val ∧ (i 1).val < win3_2.index ⟨(i 0).val / 5000, hq⟩ (1 : Fin 2) * 128 + 128
    rw [e1]; omega

/-- The region's result array: entry (p, j) is A(p, j) + b(0, j), the bias row repeated down the rows. -/
theorem final3 (c : Dev nD) : (dat3 (F := Ideal) V c).arrAt 2 cfg3.N = bias (V c main_v62) (V c main_v63) :=
  (dat3 V c).arrAt_eq_of_cover 2 (bias (V c main_v62) (V c main_v63)) (fun t _ => flushed3_eq V c t) cover3

end Cert.Gcn

end
-- ==== Proof.Region4.lean ====
/-
  Region 4 of the program: the decoder's product-and-sum down the feature axis.

  The region walks a grid of 25 points. At point t each of the two operands' blocks is columns 8192·t … 8192·t + 8191
  (all 128 rows) of its [128, 204800] array; the body multiplies the two blocks entry by entry, adds the 128 rows of
  the product together (a sum over the first axis, started from zero), and stores the resulting 8192 sums as the one
  row of the output's [1, 8192] block, which is written back to columns 8192·t … of the [1, 204800] result. So entry
  (0, q) of the result depends on column q of A and of B only and equals Σ_k A(k, q)·B(k, q), k over the 128 rows:
  it is written by the one point q / 8192, and the 25 blocks tile the 204800 columns.

  The steps: the body's stored value at entry (0, q) of a block as the sum over the rows (`pay4_apply`); where the
  three windows' blocks sit at each of the 25 points (`idx_facts4`, by evaluation); the two input blocks as entries of
  the arrays (`iblk4_0_apply`, `iblk4_1_apply`); one stored entry as the closed form at its place in the array
  (`point4`); what a point writes back is its block of the closed form (`flushed4_eq`); every entry lies in some
  point's block (`mem_blk4`, `cover4`); the result array is the closed form (`final4`).
-/
import proofs.«149319_j55490977465143_1_alg».proof.Proof.Gen.KernelIdeal.Frame
import proofs.«149319_j55490977465143_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Gcn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, as a constant function. -/
theorem zeros_r4 : (![0, 0] : Fin 2 → Nat) = fun _ => 0 := funext fun a => by fin_cases a <;> rfl

/-- The body's stored value at entry (u, q) of the one-row block: the sum over the 128 rows k of the product of the two
    blocks' entries (k, q). The casts to the same shape are identities; the cast of the vector of sums to one row reads
    the vector at q; the sum over the first axis from zero is the plain sum over that axis's coordinates, and the index
    it inserts coordinate k into is (k, q). -/
theorem pay4_apply (x0 x1 : FVec Ideal S128x8192 .f32) (u : Fin 1) (q : Fin 8192) :
    k4_pay1 (F := Ideal) x0 x1 (ix2 u q) = ∑ k : Fin 128, x0 (ix2 k q) * x1 (ix2 k q) := by
  unfold k4_pay1
  rw [shapeCast_self, shapeCast_self]
  refine (shapeCast_a_1a_apply _ shapeCasts_S8192_S1x8192 u q).trans ?_
  refine (Ideal.multiReduction_add_single (mulf x0 x1) 0x00000000#32 reduces_S128x8192_S8192 (.inl rfl) rfl (ix1 q)).trans ?_
  show ∑ k : Fin 128, mulf x0 x1 (reduces_S128x8192_S8192.lift (ix1 q) k) = _
  refine Finset.sum_congr rfl fun k _ => ?_
  have hl : reduces_S128x8192_S8192.lift (ix1 q) k = ix2 k q := funext fun d => Fin.ext (by
    match d with
    | ⟨0, _⟩ => rfl
    | ⟨1, _⟩ => rfl)
  rw [mulf_apply, hl]

/-- Where the blocks sit, decided over the 25 points: at point t every window's block index is (0, t). -/
theorem idx_facts4 : ∀ t : Fin cfg4.N, win4_0.index t (0 : Fin 2) = 0 ∧ win4_0.index t (1 : Fin 2) = t.val
    ∧ win4_1.index t (0 : Fin 2) = 0 ∧ win4_1.index t (1 : Fin 2) = t.val
    ∧ win4_2.index t (0 : Fin 2) = 0 ∧ win4_2.index t (1 : Fin 2) = t.val :=
  (by decide +kernel : ∀ t : Fin grid4.N, _)

/-- The first operand's block at point t, read at x, is the array at row of x, column 8192·t + (column of x). -/
theorem iblk4_0_apply (c : Dev nD) (t : Fin cfg4.N) (x : S128x8192.Idx) (k : S128x204800.Idx)
    (hk0 : (k 0).val = (x 0).val) (hk1 : (k 1).val = 8192 * t.val + (x 1).val) :
    (iblk4 V c 0 t : Vec Ideal S128x8192 .f32) x = (V c main_v84 : S128x204800.Idx → Elt Ideal .f32) k := by
  obtain ⟨e0, e1, -⟩ := idx_facts4 t
  unfold iblk4
  rw [View.read_apply]
  show V c main_v84 _ = V c main_v84 _
  refine congrArg (V c main_v84) (funext fun a => Fin.ext ?_)
  match a with
  | ⟨0, _⟩ => show win4_0.index t (0 : Fin 2) * 128 + 1 * (x 0).val = (k 0).val; rw [e0, hk0]; omega
  | ⟨1, _⟩ => show win4_0.index t (1 : Fin 2) * 8192 + 1 * (x 1).val = (k 1).val; rw [e1, hk1]; omega

/-- The second operand's block at point t likewise. -/
theorem iblk4_1_apply (c : Dev nD) (t : Fin cfg4.N) (x : S128x8192.Idx) (k : S128x204800.Idx)
    (hk0 : (k 0).val = (x 0).val) (hk1 : (k 1).val = 8192 * t.val + (x 1).val) :
    (iblk4 V c 1 t : Vec Ideal S128x8192 .f32) x = (V c main_v85 : S128x204800.Idx → Elt Ideal .f32) k := by
  obtain ⟨-, -, e0, e1, -⟩ := idx_facts4 t
  unfold iblk4
  rw [View.read_apply]
  show V c main_v85 _ = V c main_v85 _
  refine congrArg (V c main_v85) (funext fun a => Fin.ext ?_)
  match a with
  | ⟨0, _⟩ => show win4_1.index t (0 : Fin 2) * 128 + 1 * (x 0).val = (k 0).val; rw [e0, hk0]; omega
  | ⟨1, _⟩ => show win4_1.index t (1 : Fin 2) * 8192 + 1 * (x 1).val = (k 1).val; rw [e1, hk1]; omega

/-- One stored entry is the closed form at its place: if, for every row k, the two blocks' entries (k, column of y) are
    the arrays' entries (k, column of i), then the stored value at y is Σ_k A(k, j)·B(k, j) at i = (0, j). -/
theorem point4 (x0 x1 : FVec Ideal S128x8192 .f32) (a b : FArr Ideal S128x204800) (y : S1x8192.Idx) (i : S1x204800.Idx)
    (h0 : ∀ (k : Fin 128) (q : Fin 8192), q.val = (y 1).val → x0 (ix2 k q) = a (kCol i k))
    (h1 : ∀ (k : Fin 128) (q : Fin 8192), q.val = (y 1).val → x1 (ix2 k q) = b (kCol i k)) :
    k4_pay1 (F := Ideal) x0 x1 y = dec a b i := by
  obtain ⟨u, q, rfl⟩ : ∃ (u : Fin 1) (q : Fin 8192), y = ix2 u q := ⟨y 0, y 1, eq_ix2 y⟩
  rw [pay4_apply]
  unfold dec
  exact Finset.sum_congr rfl fun k _ => by rw [h0 k q rfl, h1 k q rfl]

/-- What point t writes back is block t of the closed form: the body leaves its one whole-block store in the output's
    buffer, and entry y of that block sits in the array at column 8192·t + (column of y), where the operands' entries
    of that column sit too. -/
theorem flushed4_eq (c : Dev nD) (t : Fin cfg4.N) :
    (dat4 V c).flushed 2 t
      = ((cfg4.win 2).blk t).view.read (Elt Ideal) (dec (V c main_v84) (V c main_v85)) := by
  show (cfg4.win 2).cut (grid4.coords t) ((dat4 V c).after 2 t) = _
  rw [after4_2]
  unfold out4_2
  rw [View.canon_unit_zero zeros_r4]
  simp only [View.ld_unit_zero (S := S128x8192) zeros_r4]
  obtain ⟨-, -, -, -, e0, e1⟩ := idx_facts4 t
  funext y
  rw [View.read_apply]
  refine point4 (iblk4 V c 0 t) (iblk4 V c 1 t) (V c main_v84) (V c main_v85) _ _
    (fun k q hq => iblk4_0_apply V c t _ _ rfl ?_) (fun k q hq => iblk4_1_apply V c t _ _ rfl ?_)
  · show win4_2.index t (1 : Fin 2) * 8192 + 1 * (y 1).val = 8192 * t.val + q.val
    rw [e1, hq]; show t.val * 8192 + 1 * (y 1).val = 8192 * t.val + (y 1).val; omega
  · show win4_2.index t (1 : Fin 2) * 8192 + 1 * (y 1).val = 8192 * t.val + q.val
    rw [e1, hq]; show t.val * 8192 + 1 * (y 1).val = 8192 * t.val + (y 1).val; omega

/-- An index of the result array is in point t's block iff each coordinate is in the block's range on its axis. -/
theorem mem_blk4 (t : Fin cfg4.N) (i : S1x204800.Idx) :
    i ∈ ((cfg4.win 2).blk t).view.set ↔ ∀ a : Fin 2, win4_2.index t a * S1x8192.size a ≤ (i a).val ∧ (i a).val < win4_2.index t a * S1x8192.size a + S1x8192.size a := by
  show i ∈ ((View.whole main_v86).slice (win4_2.rect t)).set ↔ _
  rw [View.set_slice_whole, Rect.mem_set_unit]
  exact Iff.rfl

/-- Every entry (0, q) of the result lies in the block of the point q / 8192, which is written back. -/
theorem cover4 (i : S1x204800.Idx) :
    ∃ t : Fin cfg4.N, (cfg4.win 2).flush t = true ∧ i ∈ ((cfg4.win 2).blk t).view.set := by
  have hi0 : (i 0).val < 1 := (i 0).isLt
  have hi1 : (i 1).val < 204800 := (i 1).isLt
  have hq : (i 1).val / 8192 < 25 := by omega
  obtain ⟨-, -, -, -, e0, e1⟩ := idx_facts4 ⟨(i 1).val / 8192, hq⟩
  refine ⟨⟨(i 1).val / 8192, hq⟩, flush4_2 _, ?_⟩
  rw [mem_blk4]
  intro a
  match a with
  | ⟨0, _⟩ =>
    show win4_2.index ⟨(i 1).val / 8192, hq⟩ (0 : Fin 2) * 1 ≤ (i 0).val ∧ (i 0).val < win4_2.index ⟨(i 1).val / 8192, hq⟩ (0 : Fin 2) * 1 + 1
    rw [e0]; omega
  | ⟨1, _⟩ =>
    show win4_2.index ⟨(i 1).val / 8192, hq⟩ (1 : Fin 2) * 8192 ≤ (i 1).val ∧ (i 1).val < win4_2.index ⟨(i 1).val / 8192, hq⟩ (1 : Fin 2) * 8192 + 8192
    rw [e1]; show (i 1).val / 8192 * 8192 ≤ (i 1).val ∧ (i 1).val < (i 1).val / 8192 * 8192 + 8192; omega

/-- The region's result array: entry (0, j) is Σ_k A(k, j)·B(k, j), the sum over the 128 rows. -/
theorem final4 (c : Dev nD) : (dat4 (F := Ideal) V c).arrAt 2 cfg4.N = dec (V c main_v84) (V c main_v85) :=
  (dat4 V c).arrAt_eq_of_cover 2 (dec (V c main_v84) (V c main_v85)) (fun t _ => flushed4_eq V c t) cover4

end Cert.Gcn

end
-- ==== Proof.LibGatherRows.lean ====
/-
  GATHERING WHOLE ROWS, AND THE SAME GATHER ON THE TRANSPOSED ARRAY.

  For an array x of shape [N, C] and a column idx of R start words (shape [R, 1]), the gather that collapses the row
  axis and keeps the column axis whole produces the [R, C] array whose entry (r, c) is x(n r, c), where n r is the start
  word idx(r, 0) read as a signed integer and clamped into [0, N − 1].  The mirror-image gather on an array xT of shape
  [C, N] (collapse the second axis, keep the first whole) produces the [C, R] array whose entry (c, r) is xT(c, n r) for
  the same n r.  Hence gathering columns of the transpose of x and reading the result at (c, r) is gathering rows of x and
  reading at (r, c): the two results are transposes of one another.  Nothing is assumed of the start words: the clamp makes every start
  a valid row.
-/
import Idealize.ShloMosaic.Lib.ValueIdx
import Idealize.ShloMosaic.Lib.Pipeline.Value

noncomputable section

namespace Cert.Lib.GatherRows

open Idealize.ShloMosaic Idealize.ShloMosaic.ValueIdx

variable {α : Type}

/-- The dimension numbers of "pick rows": operand [N, C], start indices [R, 1], result [R, C]; the row axis is collapsed and is the one
    the start index addresses, the column axis is the single offset axis, taken whole. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of "pick columns": operand [C, N], start indices [R, 1], result [C, R]; the column axis is collapsed and is
    the one the start index addresses, the row axis is the single offset axis, taken whole. -/
abbrev colDims (N C R : Nat) (wf : GatherDims.WF ⟨2, ![C, N]⟩ ⟨2, ![R, 1]⟩ ⟨2, ![C, R]⟩ [0] [1] [] [1] [] 1 ![C, 1]) :
    GatherDims ⟨2, ![C, N]⟩ ⟨2, ![R, 1]⟩ ⟨2, ![C, R]⟩ where
  offsetDims := [0]
  collapsedSliceDims := [1]
  operandBatchingDims := []
  startIndicesBatchingDims := []
  startIndexMap := [1]
  indexVectorDim := 1
  sliceSizes := ![C, 1]
  wf := wf

/-- The position (r, 0) of the r-th start word in the index column. -/
abbrev startAt {R : Nat} (r : Fin R) : (⟨2, ![R, 1]⟩ : Shape).Idx :=
  fun a => match a with | ⟨0, _⟩ => r | ⟨1, _⟩ => ⟨0, Nat.one_pos⟩

/-- The row a start word picks: the word read signed, clamped into [0, N − 1]. -/
abbrev pick {R w : Nat} (N : Nat) (hN : 0 < N) (idx : IVec ⟨2, ![R, 1]⟩ w) (r : Fin R) : Fin N :=
  ⟨min (idx (startAt r)).toInt.toNat (N - 1), by omega⟩

theorem ne10 : (1 : Fin 2) ≠ 0 := by decide
theorem ne01 : (0 : Fin 2) ≠ 1 := by decide

/-- PICKING ROWS, read at (r, c): the operand at (the row the r-th start word picks, c). -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c) = x (ix2 (pick N hN idx r) c) := by
  unfold Host.gather
  -- the row axis: the clamped start word, no batching coordinate, no offset (the axis is collapsed)
  have h0 : ((rowDims N C R wf).operandIdx (ix2 r c) idx (0 : Fin 2)).val = (pick N hN idx r).val := by
    show (rowDims N C R wf).start (ix2 r c) idx 0 + (rowDims N C R wf).batchCoord (ix2 r c) 0
      + (rowDims N C R wf).offCoord (ix2 r c) 0 = _
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = startAt r := by
      funext b; refine Fin.ext ?_
      match b with
      | ⟨0, _⟩ => rfl
      | ⟨1, _⟩ => rfl
    rw [hsi]
    rfl
  -- the column axis: no start (the start index does not address it), no batching coordinate, the offset coordinate c
  have h1 : ((rowDims N C R wf).operandIdx (ix2 r c) idx (1 : Fin 2)).val = c.val := by
    show (rowDims N C R wf).start (ix2 r c) idx 1 + (rowDims N C R wf).batchCoord (ix2 r c) 1
      + (rowDims N C R wf).offCoord (ix2 r c) 1 = _
    rw [GatherDims.batchCoord_eq_zero _ _ _ List.not_mem_nil, Nat.add_zero]
    unfold GatherDims.start
    rw [dif_neg (show (1 : Fin 2) ∉ (rowDims N C R wf).startIndexMap from
      fun h => absurd (List.mem_singleton.mp h) ne10), Nat.zero_add]
    unfold GatherDims.offCoord
    rw [dif_pos (show (1 : Fin 2) ∈ (rowDims N C R wf).sKept from
      (GatherDims.mem_sKept _ _).mpr ⟨fun h => absurd (List.mem_singleton.mp h) ne10, List.not_mem_nil⟩)]
    rfl
  exact congrArg x (funext fun a => Fin.ext (by
    match a with
    | ⟨0, _⟩ => exact h0
    | ⟨1, _⟩ => exact h1))

/-- PICKING COLUMNS, read at (c, r): the operand at (c, the column the r-th start word picks). -/
theorem gather_cols_apply {N C R w : Nat} (hN : 0 < N)
    (wf : GatherDims.WF ⟨2, ![C, N]⟩ ⟨2, ![R, 1]⟩ ⟨2, ![C, R]⟩ [0] [1] [] [1] [] 1 ![C, 1])
    (x : (⟨2, ![C, N]⟩ : Shape).Idx → α) (idx : IVec ⟨2, ![R, 1]⟩ w) (c : Fin C) (r : Fin R) :
    Host.gather (colDims N C R wf) x idx (ix2 c r) = x (ix2 c (pick N hN idx r)) := by
  unfold Host.gather
  -- the column axis: the clamped start word, no batching coordinate, no offset (the axis is collapsed)
  have h1 : ((colDims N C R wf).operandIdx (ix2 c r) idx (1 : Fin 2)).val = (pick N hN idx r).val := by
    show (colDims N C R wf).start (ix2 c r) idx 1 + (colDims N C R wf).batchCoord (ix2 c r) 1
      + (colDims N C R wf).offCoord (ix2 c r) 1 = _
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (1 : Fin 2) ∈ (colDims N C R wf).startIndexMap from List.mem_singleton.mpr rfl)]
    have hsi : (colDims N C R wf).siIdx (ix2 c r) ⟨List.idxOf (1 : Fin 2) (colDims N C R wf).startIndexMap,
        List.idxOf_lt_length_iff.2 (List.mem_singleton.mpr rfl)⟩ = startAt r := by
      funext b; refine Fin.ext ?_
      match b with
      | ⟨0, _⟩ => rfl
      | ⟨1, _⟩ => rfl
    rw [hsi]
    rfl
  -- the row axis: no start, no batching coordinate, the offset coordinate c
  have h0 : ((colDims N C R wf).operandIdx (ix2 c r) idx (0 : Fin 2)).val = c.val := by
    show (colDims N C R wf).start (ix2 c r) idx 0 + (colDims N C R wf).batchCoord (ix2 c r) 0
      + (colDims N C R wf).offCoord (ix2 c r) 0 = _
    rw [GatherDims.batchCoord_eq_zero _ _ _ List.not_mem_nil, Nat.add_zero]
    unfold GatherDims.start
    rw [dif_neg (show (0 : Fin 2) ∉ (colDims N C R wf).startIndexMap from
      fun h => absurd (List.mem_singleton.mp h) ne01), Nat.zero_add]
    unfold GatherDims.offCoord
    rw [dif_pos (show (0 : Fin 2) ∈ (colDims N C R wf).sKept from
      (GatherDims.mem_sKept _ _).mpr ⟨fun h => absurd (List.mem_singleton.mp h) ne01, List.not_mem_nil⟩)]
    rfl
  exact congrArg x (funext fun a => Fin.ext (by
    match a with
    | ⟨0, _⟩ => exact h0
    | ⟨1, _⟩ => exact h1))

/-- Columns gathered from the transpose, read at (c, r), are rows gathered from the array itself, read at (r, c). -/
theorem gather_cols_transpose {N C R w : Nat} (hN : 0 < N)
    (wfc : GatherDims.WF ⟨2, ![C, N]⟩ ⟨2, ![R, 1]⟩ ⟨2, ![C, R]⟩ [0] [1] [] [1] [] 1 ![C, 1])
    (wfr : GatherDims.WF ⟨2, ![N, C]⟩ ⟨2, ![R, 1]⟩ ⟨2, ![R, C]⟩ [1] [0] [] [0] [] 1 ![1, C])
    (x : (⟨2, ![N, C]⟩ : Shape).Idx → α) (h : (⟨2, ![N, C]⟩ : Shape).Transposes [1, 0] ⟨2, ![C, N]⟩)
    (idx : IVec ⟨2, ![R, 1]⟩ w) (c : Fin C) (r : Fin R) :
    Host.gather (colDims N C R wfc) (transpose ⟨2, ![C, N]⟩ [1, 0] x h) idx (ix2 c r)
      = Host.gather (rowDims N C R wfr) x idx (ix2 r c) := by
  rw [gather_cols_apply hN, gather_rows_apply hN]
  exact transpose_apply [1, 0] x h _ _ (fun b => by
    match b with
    | ⟨0, _⟩ => rfl
    | ⟨1, _⟩ => rfl)

end Cert.Lib.GatherRows

end
-- ==== Proof.RefBridge.lean ====
/-
  The kernel program's value, as Spec composes it, is the reference program's value.

  Both programs run the same operations: the matrix product X·W1, one round of message passing over the edge list
  (degrees, the two normalisation factors, gather by source, scatter-add by destination, the self-loop term), bias and
  max with 0, the product with W2, the second round, bias, and the decoder Σ_k z[u j, k] · z[v j, k].  They differ in
  three places only, none of which changes a value:
   • the matrix products and the decoder's sum are written here entry by entry, Σ_k a(p, k) · w(k, q), which is what the
     reference's dot_general and float sum are, entry by entry;
   • a bias vector reaches its [100000, 128] use here as a one-row array [1, 128] read at row 0, there as two broadcasts;
   • the decoder here gathers COLUMNS of the transposed embedding z^T (shape [128, 100000]), pads the 200000 picked
     columns with 4800 columns of zeros, multiplies, sums down each column, and keeps the first 200000 sums; the
     reference gathers ROWS of z, multiplies, and sums along each row.  Entry (k, j) of the first is entry (j, k) of the
     second (LibGatherRows), a column j < 200000 never sees the padding, and the sum over k is the same sum.
  The host stretches between (degree, coefficients, gather, scatter-add) are the same operations on the same operands on
  both sides and are carried as they are: no gather or scatter-add of the message-passing rounds is ever read at an index.
-/
import proofs.«149319_j55490977465143_1_alg».proof.Proof.Spec
import proofs.«149319_j55490977465143_1_alg».proof.Proof.Gen.ReferenceIdeal.Read
import proofs.«149319_j55490977465143_1_alg».proof.Proof.LibGatherRows
import Idealize.ShloMosaic.Lib.KernelVsHost

noncomputable section

namespace Cert.Gcn

open Idealize.ShloMosaic Idealize.ShloMosaic.TcCoe Idealize.SL.Sem Idealize.ShloMosaic.ValueIdx
open Cert.KernelIdeal Cert.KernelIdeal.Facts₀ Cert.KernelIdeal.Facts
open Cert.ReferenceIdeal.Read Cert.Lib.GatherRows

variable {F : FTy → Type} [FloatOps F]

/-! ## The two matrix products: the same sum over k, entry by entry -/

theorem rowK_eq_lidx4 (i : S100000x128.Idx) (k : Fin 256) : (rowK i k : S100000x256.Idx) = lidx_main_v4 i k :=
  funext fun a => Fin.ext (by match a with | ⟨0, _⟩ => rfl | ⟨1, _⟩ => rfl)
theorem kCol_eq_ridx4 (i : S100000x128.Idx) (k : Fin 256) : (kCol i k : S256x128.Idx) = ridx_main_v4 i k :=
  funext fun a => Fin.ext (by match a with | ⟨0, _⟩ => rfl | ⟨1, _⟩ => rfl)

/-- X · W1 is the reference's first dot_general. -/
theorem mm1_eq (x0 : FArr Ideal S100000x256) (x3 : FArr Ideal S256x128) :
    mm1 x0 x3 = val_main_v4 (F := Ideal) x0 x3 := by
  funext i
  rw [val_main_v4_apply]
  unfold mm1
  simp only [rowK_eq_lidx4, kCol_eq_ridx4]

theorem rowK_eq_lidx49 (i : S100000x128.Idx) (k : Fin 128) : (rowK i k : S100000x128.Idx) = lidx_main_v49 i k :=
  funext fun a => Fin.ext (by match a with | ⟨0, _⟩ => rfl | ⟨1, _⟩ => rfl)
theorem kCol_eq_ridx49 (i : S100000x128.Idx) (k : Fin 128) : (kCol i k : S128x128.Idx) = ridx_main_v49 i k :=
  funext fun a => Fin.ext (by match a with | ⟨0, _⟩ => rfl | ⟨1, _⟩ => rfl)

/-- (the first layer's output) · W2 is the reference's second dot_general. -/
theorem mm2_eq (x0 : FArr Ideal S100000x256) (x1 : IArr Ideal S2x1600000) (x3 : FArr Ideal S256x128) (x4 : FArr Ideal S128)
    (x5 : FArr Ideal S128x128) :
    mm2 (val_main_v48 (F := Ideal) x0 x1 x3 x4) x5 = val_main_v49 (F := Ideal) x0 x1 x3 x4 x5 := by
  funext i
  rw [val_main_v49_apply]
  unfold mm2
  simp only [rowK_eq_lidx49, kCol_eq_ridx49]

/-! ## Message passing: the same host operations on the same operands

  The reference computes the degree vector, its inverse square root, the edge coefficients and the self-loop
  coefficients once per layer, from the edge list alone; Spec's dinv, coef and selfc are those terms. Each equation
  below holds by unfolding both sides to the shared operations: the dimension records of the two programs have equal
  fields, and their remaining components are proofs. -/

theorem layer_eq44 (x0 : FArr F S100000x256) (x1 : IArr F S2x1600000) (x3 : FArr F S256x128) :
    layer (val_main_v4 (F := F) x0 x3) x1 = val_main_v44 (F := F) x0 x1 x3 := rfl
theorem layer_eq89 (x0 : FArr F S100000x256) (x1 : IArr F S2x1600000) (x3 : FArr F S256x128) (x4 : FArr F S128)
    (x5 : FArr F S128x128) :
    layer (val_main_v49 (F := F) x0 x1 x3 x4 x5) x1 = val_main_v89 (F := F) x0 x1 x3 x4 x5 := rfl

/-! ## The two bias additions -/

/-- The bias row read at (0, column of i) is the bias vector's entry at that column. -/
theorem brow_zeroCol (b : FArr F S128) (i : S100000x128.Idx) (k : S128.Idx) (hk : (k 0).val = (i 1).val) :
    brow b (zeroCol i) = b k := by
  unfold brow
  exact shapeCast_apply b shapeCasts_S128_S1x128 _ _ (by
    rw [Shape.rowMajor_val_two, Shape.rowMajor_val_one]
    show (k 0).val = 0 * 128 + (i 1).val
    omega)

/-- max(layer 1 + b1, 0) is the reference's add followed by its relu. -/
theorem biasRelu_eq (x0 : FArr F S100000x256) (x1 : IArr F S2x1600000) (x3 : FArr F S256x128) (x4 : FArr F S128) :
    biasRelu (val_main_v44 (F := F) x0 x1 x3) (brow x4) = val_main_v48 (F := F) x0 x1 x3 x4 := by
  funext i
  rw [val_main_v48_apply, val_main_v47_apply, val_main_call0_v0_apply, val_main_call0_cst_apply, val_main_v46_apply,
    val_main_v45_apply]
  unfold biasRelu
  rw [brow_zeroCol x4 i (idx_main_v45 (idx_main_v46 i)) rfl]

/-- layer 2 + b2 is the reference's last add. -/
theorem bias_eq (x0 : FArr F S100000x256) (x1 : IArr F S2x1600000) (x3 : FArr F S256x128) (x4 : FArr F S128)
    (x5 : FArr F S128x128) (x6 : FArr F S128) :
    bias (val_main_v89 (F := F) x0 x1 x3 x4 x5) (brow x6) = val_main_v92 (F := F) x0 x1 x3 x4 x5 x6 := by
  funext i
  rw [val_main_v92_apply, val_main_v91_apply, val_main_v90_apply]
  unfold bias
  rw [brow_zeroCol x6 i (idx_main_v90 (idx_main_v91 i)) rfl]

/-- The node embeddings are the reference's stage 92. -/
theorem embed_eq (x0 : FArr Ideal S100000x256) (x1 : IArr Ideal S2x1600000) (x3 : FArr Ideal S256x128) (x4 : FArr Ideal S128)
    (x5 : FArr Ideal S128x128) (x6 : FArr Ideal S128) :
    embed x0 x1 x3 x4 x5 x6 = val_main_v92 (F := Ideal) x0 x1 x3 x4 x5 x6 := by
  unfold embed
  rw [mm1_eq, layer_eq44, biasRelu_eq, mm2_eq, layer_eq89, bias_eq]

/-! ## The decoder -/

/-- The two index columns (a row of the edge-label index, negative entries counted from the end) are the reference's. -/
theorem labelCol0_eq (x2 : IArr F S2x200000) : labelCol0 x2 = val_main_v100 (F := F) x2 := rfl
theorem labelCol1_eq (x2 : IArr F S2x200000) : labelCol1 x2 = val_main_v109 (F := F) x2 := rfl

/-- The column number of labelled edge j. -/
abbrev colOf (j : S200000.Idx) : Fin 200000 := ⟨(j 0).val, (j 0).isLt⟩
/-- The same column number in the padded arrays, 204800 columns wide. -/
abbrev colP (j : S200000.Idx) : Fin 204800 := ⟨(j 0).val, by have h : (j 0).val < 200000 := (j 0).isLt; omega⟩

/-- Entry j of the first 200000 entries of a one-row array is the row's entry (0, j). -/
theorem firstEntries_apply (o : FArr F S1x204800) (j : S200000.Idx) :
    firstEntries o j = o (ix2 (0 : Fin 1) (colP j)) := by
  unfold firstEntries
  rw [shapeCast_apply _ shapeCasts_S1x200000_S200000 j (ix2 (0 : Fin 1) (colOf j)) (by
    rw [Shape.rowMajor_val_two, Shape.rowMajor_val_one]; show 0 * 200000 + (j 0).val = (j 0).val; omega)]
  exact extractStridedSlice_apply ![0, 0] o slices_S1x204800_S1x200000_0_0 _ _ (fun a => match a with
    | ⟨0, _⟩ => by show 0 = 0 + 0; rfl
    | ⟨1, _⟩ => by show (j 0).val = 0 + (j 0).val; omega)

/-- At a column j < 200000 the padded array is the gathered one: entry (k, j) lies inside the operand. -/
theorem pickPad_apply (zT : FArr F S128x100000) (ix : IArr F S200000x1) (j : S200000.Idx) (k : Fin 128) :
    pickPad zT ix (kCol (ix2 (0 : Fin 1) (colP j)) k)
      = Host.gather gather_S128x100000_S200000x1_S128x200000_0_1_n_n_1_1_1281 zT ix (ix2 k (colOf j)) := by
  unfold pickPad
  exact pad_apply_of_inside (s := S128x200000) (t := S128x204800) (![0, 0] : Fin 2 → Nat) ![0, 4800] ![0, 0]
    (Host.gather gather_S128x100000_S200000x1_S128x200000_0_1_n_n_1_1_1281 zT ix) _
    pads_S128x200000_S128x204800_000_048000 h_S_ (kCol (ix2 (0 : Fin 1) (colP j)) k) (ix2 k (colOf j)) (fun a => match a with
    | ⟨0, _⟩ => by show k.val = 0 + k.val * (0 + 1); omega
    | ⟨1, _⟩ => by show (j 0).val = 0 + (j 0).val * (0 + 1); omega)

/-- Columns picked from the feature-major array, read at (k, r), are rows picked from the node-major one, read at (r, k). -/
theorem pick_eq (z : FArr F S100000x128) (ix : IArr F S200000x1) (k : Fin 128) (r : Fin 200000) :
    Host.gather gather_S128x100000_S200000x1_S128x200000_0_1_n_n_1_1_1281 (featMajor z) ix (ix2 k r)
      = Host.gather Cert.ReferenceIdeal.gather_S100000x128_S200000x1_S200000x128_1_0_n_n_0_1_1128 z ix (ix2 r k) :=
  gather_cols_transpose (N := 100000) (C := 128) (R := 200000) (by decide)
    gather_S128x100000_S200000x1_S128x200000_0_1_n_n_1_1_1281_wf
    Cert.ReferenceIdeal.Facts₀.gather_S100000x128_S200000x1_S200000x128_1_0_n_n_0_1_1128_wf
    z transposes_S100000x128_S128x100000_1_0 ix k r

theorem idx112_eq (j : S200000.Idx) (k : Fin 128) : (ix2 (colOf j) k : Cert.ReferenceIdeal.S200000x128.Idx) = idx_main_v112 j k :=
  funext fun a => Fin.ext (by match a with | ⟨0, _⟩ => rfl | ⟨1, _⟩ => rfl)

/-- The decoder on embeddings z and index columns c0, c1, read at labelled edge j: Σ_k over the 128 features of the
    product of the two picked rows' k-th entries. -/
theorem decoder_apply (z : FArr Ideal S100000x128) (c0 c1 : IArr Ideal S200000x1) (j : S200000.Idx) :
    firstEntries (dec (pickPad (featMajor z) c0) (pickPad (featMajor z) c1)) j
      = ∑ k : Fin 128,
          Host.gather Cert.ReferenceIdeal.gather_S100000x128_S200000x1_S200000x128_1_0_n_n_0_1_1128 z c0 (idx_main_v112 j k)
          * Host.gather Cert.ReferenceIdeal.gather_S100000x128_S200000x1_S200000x128_1_0_n_n_0_1_1128 z c1 (idx_main_v112 j k) := by
  rw [firstEntries_apply]
  show ∑ k : Fin 128, pickPad (featMajor z) c0 (kCol (ix2 (0 : Fin 1) (colP j)) k)
      * pickPad (featMajor z) c1 (kCol (ix2 (0 : Fin 1) (colP j)) k) = _
  refine Finset.sum_congr rfl fun k _ => ?_
  rw [pickPad_apply, pickPad_apply, pick_eq, pick_eq, idx112_eq]

/-! ## The whole program -/

/-- The reference's result at labelled edge j: its zero constant plus, over the 128 features, the product of the entries
    of the two gathered rows — the zero constant dropped. -/
theorem v112_read (x0 : FArr Ideal S100000x256) (x1 : IArr Ideal S2x1600000) (x2 : IArr Ideal S2x200000) (x3 : FArr Ideal S256x128)
    (x4 : FArr Ideal S128) (x5 : FArr Ideal S128x128) (x6 : FArr Ideal S128) (j : S200000.Idx) :
    val_main_v112 (F := Ideal) x0 x1 x2 x3 x4 x5 x6 j
      = ∑ k : Fin 128,
          Host.gather Cert.ReferenceIdeal.gather_S100000x128_S200000x1_S200000x128_1_0_n_n_0_1_1128
            (val_main_v92 (F := Ideal) x0 x1 x3 x4 x5 x6) (val_main_v100 (F := Ideal) x2) (idx_main_v112 j k)
          * Host.gather Cert.ReferenceIdeal.gather_S100000x128_S200000x1_S200000x128_1_0_n_n_0_1_1128
            (val_main_v92 (F := Ideal) x0 x1 x3 x4 x5 x6) (val_main_v109 (F := Ideal) x2) (idx_main_v112 j k) := by
  rw [val_main_v112_apply, val_main_cst_22_apply, Ideal.ofBits_def, Ideal.ofBits_zero_f32, zero_add]
  refine Finset.sum_congr rfl fun k _ => ?_
  rw [val_main_v111_apply, Ideal.mulf_def]
  rfl

theorem out_eq_ref (x0 : FArr Ideal S100000x256) (x1 : IArr Ideal S2x1600000) (x2 : IArr Ideal S2x200000) (x3 : FArr Ideal S256x128)
    (x4 : FArr Ideal S128) (x5 : FArr Ideal S128x128) (x6 : FArr Ideal S128) :
    out x0 x1 x2 x3 x4 x5 x6 = Cert.ReferenceIdeal.Read.val_main_v112 (F := Ideal) x0 x1 x2 x3 x4 x5 x6 := by
  funext j
  rw [v112_read]
  unfold out
  rw [embed_eq, labelCol0_eq, labelCol1_eq]
  exact decoder_apply _ _ _ j

end Cert.Gcn

end
-- ==== Proof.lean ====
/-
  The certificate's proof. Both programs compute the scores of 200000 labelled edges from a two-layer graph convolution:
  with dinv = (1 + in-degree)^(-1/2), a layer sends H to  Σ_{e : dst e = n} H[src e]·dinv[src e]·dinv[n] + H[n]·dinv[n]²,
  h = max(layer(X·W1) + b1, 0), z = layer(h·W2) + b2, and the score of the pair (u, v) is Σ_k z[u,k]·z[v,k].
  The kernel program does the two matrix products, the two bias additions and the decoder's product-and-sum in five
  grid regions (row blocks of 5000 nodes; column blocks of 8192 edges of the transposed, zero-padded gathered
  embeddings) and everything else in host operations; the reference does it all in host operations.

  * The three frames: the generated frame certificates of the two kernel programs, and the reference's generated run.
  * The idealization rewrote nothing, so that conjunct is trivial.
  * Equality of the results on the extended reals: the kernel's run names its result buffer at the last segment
    boundary (KernelRun), which is read back through the thirteen segments to the launch arguments (Fold, over the
    host stretches of StretchA/B/C and the five regions' closed forms Region0 … Region4) as the one composition
    Spec.out; that composition is the reference's last stage, operation for operation (RefBridge): no algebraic law
    beyond reordering finite sums is used, and the inputs' finiteness is never needed.
-/
import proofs.«149319_j55490977465143_1_alg».proof.Defs
import proofs.«149319_j55490977465143_1_alg».proof.Proof.Gen.Kernel
import proofs.«149319_j55490977465143_1_alg».proof.Proof.Gen.Kernel.Skeleton
import proofs.«149319_j55490977465143_1_alg».proof.Proof.Gen.Kernel.Launch
import proofs.«149319_j55490977465143_1_alg».proof.Proof.Gen.Kernel.Points
import proofs.«149319_j55490977465143_1_alg».proof.Proof.Gen.Kernel.Frame
import proofs.«149319_j55490977465143_1_alg».proof.Proof.Gen.KernelIdeal
import proofs.«149319_j55490977465143_1_alg».proof.Proof.Gen.KernelIdeal.Skeleton
import proofs.«149319_j55490977465143_1_alg».proof.Proof.Gen.KernelIdeal.Launch
import proofs.«149319_j55490977465143_1_alg».proof.Proof.Gen.KernelIdeal.Points
import proofs.«149319_j55490977465143_1_alg».proof.Proof.Gen.KernelIdeal.Frame
import proofs.«149319_j55490977465143_1_alg».proof.Proof.Gen.ReferenceIdeal
import proofs.«149319_j55490977465143_1_alg».proof.Proof.Gen.ReferenceIdeal.Run
import proofs.«149319_j55490977465143_1_alg».proof.Proof.Gen.ReferenceIdeal.Read
import proofs.«149319_j55490977465143_1_alg».proof.Proof.Gen.Pre_finite_inputs
import proofs.«149319_j55490977465143_1_alg».proof.Proof.KernelRun
import proofs.«149319_j55490977465143_1_alg».proof.Proof.Fold
import proofs.«149319_j55490977465143_1_alg».proof.Proof.Region0
import proofs.«149319_j55490977465143_1_alg».proof.Proof.Region1
import proofs.«149319_j55490977465143_1_alg».proof.Proof.Region2
import proofs.«149319_j55490977465143_1_alg».proof.Proof.Region3
import proofs.«149319_j55490977465143_1_alg».proof.Proof.Region4
import proofs.«149319_j55490977465143_1_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the same scores: the kernel's result buffer holds the specification's
    composition of the arguments (its run read back through the segments, each region by its closed form), the
    reference's holds its own last stage of the arguments, the arguments agree, and the two compositions are one
    function: the same operations, the kernel's matrix products and bias additions done block by block, its decoder
    on the transposed, zero-padded embeddings. -/
theorem algebraic : Cert.algebraic_KernelIdeal_ReferenceIdeal := by
  intro m ρ m' ρ' _ hagree
  refine ⟨fun c => Cert.Gcn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gcn.b13_v88 m ρ c Cert.Gcn.final0 Cert.Gcn.final1 Cert.Gcn.final2 Cert.Gcn.final3 Cert.Gcn.final4), (h c).2⟩)
      (Cert.Gcn.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v112_eq, (hagree c).1, (hagree c).2.1, (hagree c).2.2.1, (hagree c).2.2.2.1,
      (hagree c).2.2.2.2.1, (hagree c).2.2.2.2.2.1, (hagree c).2.2.2.2.2.2]
    exact (Cert.Gcn.out_eq_ref _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
